-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S16x2048x2048 : Shape := ⟨3, ![16, 2048, 2048]⟩
abbrev S768x768 : Shape := ⟨2, ![768, 768]⟩
abbrev S768 : Shape := ⟨1, ![768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S16x2048x768 .f32) (main_arg1 : FVec F S16x2048x768 .f32) (main_arg2 : IVec S16x2048x2048 1) (main_arg3 : FVec F S768x768 .f32) (main_arg4 : FVec F S768 .f32) (main_arg5 : FVec F S768x768 .f32) (main_arg6 : FVec F S768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S16x2048x768 .f32 := Host.absf main_arg1
  let main_cst_0 : FVec F S_ .f32 := constant S_ .f32 0x7F800000#32
  let main_v5 : FVec F S16x2048x768 .f32 := broadcastInDim S16x2048x768 ![] bcast_S_S16x2048x768 main_cst_0
  let main_v6 : IVec S16x2048x768 1 := cmpf .olt main_v4 main_v5
  let main_c_1 : IVec S_ 1 := constantI S_ 1 1#1
  let main_v7 : IVec S_ 1 := (fun x v => Host.reduce IntOp.andi x v reducesTo_S16x2048x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_v13 main_v16
-- ==== Kernel.lean ====
abbrev S16x2048x768 : Shape := ⟨3, ![16, 2048, 768]⟩
abbrev S16x2048x2048 : Shape := ⟨3, ![16, 2048, 2048]⟩
abbrev S768x768 : Shape := ⟨2, ![768, 768]⟩
abbrev S768 : Shape := ⟨1, ![768]⟩
abbrev S32768x768 : Shape := ⟨2, ![32768, 768]⟩
abbrev S1024x768 : Shape := ⟨2, ![1024, 768]⟩
abbrev S1x768 : Shape := ⟨2, ![1, 768]⟩
abbrev S1x1024x768 : Shape := ⟨3, ![1, 1024, 768]⟩
abbrev S1x512x768 : Shape := ⟨3, ![1, 512, 768]⟩
abbrev S1x1024x512 : Shape := ⟨3, ![1, 1024, 512]⟩
abbrev S512x768 : Shape := ⟨2, ![512, 768]⟩
abbrev S768x512 : Shape := ⟨2, ![768, 512]⟩
abbrev S1024x512 : Shape := ⟨2, ![1024, 512]⟩

abbrev nBuf : Space → Nat
  | .hbm => 16
  | .vmem => 18
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S16x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S32768x768, .f32⟩
  | .hbm, ⟨12, _⟩ => ⟨S32768x768, .bf16⟩
  | .hbm, ⟨13, _⟩ => ⟨S16x2048x768, .bf16⟩
  | .hbm, ⟨14, _⟩ => ⟨S16x2048x2048, .i32⟩
  | .hbm, ⟨15, _⟩ => ⟨S16x2048x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768, .f32⟩
  | .local _ .vmem, ⟨4, _⟩ => ⟨S1024x768, .bf16⟩
  | .local _ .vmem, ⟨5, _⟩ => ⟨S1024x768, .bf16⟩
  | .local _ .vmem, ⟨6, _⟩ => ⟨S1x1024x768, .f32⟩
  | .local _ .vmem, ⟨7, _⟩ => ⟨S1x1024x768, .f32⟩
  | .local _ .vmem, ⟨8, _⟩ => ⟨S768x768, .bf16⟩
  | .local _ .vmem, ⟨9, _⟩ => ⟨S768, .f32⟩
  | .local _ .vmem, ⟨10, _⟩ => ⟨S1x512x768, .bf16⟩
  | .local _ .vmem, ⟨11, _⟩ => ⟨S1x512x768, .bf16⟩
  | .local _ .vmem, ⟨12, _⟩ => ⟨S1x1024x512, .i32⟩
  | .local _ .vmem, ⟨13, _⟩ => ⟨S1x1024x512, .i32⟩
  | .local _ .vmem, ⟨14, _⟩ => ⟨S1x1024x768, .f32⟩
  | .local _ .vmem, ⟨15, _⟩ => ⟨S1x1024x768, .f32⟩
  | .local _ .vmem, ⟨16, _⟩ => ⟨S1024x768, .f32⟩
  | .local _ .vmem, ⟨17, _⟩ => ⟨S1024x768, .bf16⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 2, 4], ![false, false, false]⟩

def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  transposes_S768x768_S768x768_1_0 : S768x768.Transposes [1, 0] S768x768
  bitsLt_bf16_f32 : FTy.bits .bf16 < FTy.bits .f32
  shapeCasts_S16x2048x768_S32768x768 : S16x2048x768.ShapeCasts S32768x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S32768x768_S16x2048x768 : S32768x768.ShapeCasts S16x2048x768
  natLt_1_32 : 1 < 32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  transposes_S512x768_p1_0_S768x512 : S512x768.Transposes [1, 0] S768x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x768_S768x512_S1024x512_1_0_0_1_n_n_wf : DotDims.WF S1024x768 S768x512 S1024x512 [1] [0] [0] [1] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .bf16 = 32 ∨ (Rect.block (s := S32768x768) S1024x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S16x2048x768.size a
  hwx1_0 : ∀ i : grid1.Coords, EltTy.bits .f32 = 32 ∨ (Rect.block (s := S16x2048x768) S1x1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x768.size a ≤ S16x2048x768.size a
  hwx1_3 : ∀ i : grid1.Coords, EltTy.bits .bf16 = 32 ∨ (Rect.block (s := S16x2048x768) S1x512x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S16x2048x2048.size a
  hwx1_4 : ∀ i : grid1.Coords, EltTy.bits .i32 = 32 ∨ (Rect.block (s := S16x2048x2048) S1x1024x512.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x768.size a ≤ S16x2048x768.size a
  hwx1_5 : ∀ i : grid1.Coords, EltTy.bits .f32 = 32 ∨ (Rect.block (s := S16x2048x768) S1x1024x768.size (cc1_transform_5 i) (hinb1_5 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_v4) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16x2048x768 : Shape := ⟨3, ![16, 2048, 768]⟩
abbrev S16x2048x2048 : Shape := ⟨3, ![16, 2048, 2048]⟩
abbrev S768x768 : Shape := ⟨2, ![768, 768]⟩
abbrev S768 : Shape := ⟨1, ![768]⟩
abbrev S1x1x768 : Shape := ⟨3, ![1, 1, 768]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S16x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x2048x768, .f32⟩
  | .hbm, ⟨8, _⟩ => ⟨S1x1x768, .f32⟩
  | .hbm, ⟨9, _⟩ => ⟨S16x2048x768, .f32⟩
  | .hbm, ⟨10, _⟩ => ⟨S16x2048x768, .f32⟩
  | .hbm, ⟨11, _⟩ => ⟨S16x2048x768, .f32⟩
  | .hbm, ⟨12, _⟩ => ⟨S1x1x768, .f32⟩
  | .hbm, ⟨13, _⟩ => ⟨S16x2048x768, .f32⟩
  | .hbm, ⟨14, _⟩ => ⟨S16x2048x768, .f32⟩
  | .hbm, ⟨15, _⟩ => ⟨S16x2048x2048, .f32⟩
  | .hbm, ⟨16, _⟩ => ⟨S_, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  bcast_S_S16x2048x2048 : S_.BroadcastsInDim S16x2048x2048 (![] : Fin 0 → Fin S16x2048x2048.rank)
  dot_S16x2048x768_S768x768_S16x2048x768_2_1_01_0_n_n_wf : DotDims.WF S16x2048x768 S768x768 S16x2048x768 [2] [1] [0, 1] [0] [] []
  dot_S16x2048x768_S16x2048x768_S16x2048x2048_2_2_1_1_0_0_wf : DotDims.WF S16x2048x768 S16x2048x768 S16x2048x2048 [2] [2] [1] [1] [0] [0]
  dot_S16x2048x2048_S16x2048x768_S16x2048x768_2_1_1_2_0_0_wf : DotDims.WF S16x2048x2048 S16x2048x768 S16x2048x768 [2] [1] [1] [2] [0] [0]

variable [Facts₀]

def dot_S16x2048x768_S768x768_S16x2048x768_2_1_01_0_n_n : DotDims S16x2048x768 S768x768 S16x2048x768 where
  lhsContracting := [2]
  rhsContracting := [1]
  lhsNonContracting := [0, 1]
  rhsNonContracting := [0]
  lhsBatch := []
  rhsBatch := []
  wf := dot_S16x2048x768_S768x768_S16x2048x768_2_1_01_0_n_n_wf
def dot_S16x2048x768_S16x2048x768_S16x2048x2048_2_2_1_1_0_0 : DotDims S16x2048x768 S16x2048x768 S16x2048x2048 where
  lhsContracting := [2]
  rhsContracting := [2]
  lhsNonContracting := [1]
  rhsNonContracting := [1]
  lhsBatch := [0]
  rhsBatch := [0]
  wf := dot_S16x2048x768_S16x2048x768_S16x2048x2048_2_2_1_1_0_0_wf
def dot_S16x2048x2048_S16x2048x768_S16x2048x768_2_1_1_2_0_0 : DotDims S16x2048x2048 S16x2048x768 S16x2048x768 where
  lhsContracting := [2]
  rhsContracting := [1]
  lhsNonContracting := [1]
  rhsNonContracting := [2]
  lhsBatch := [0]
  rhsBatch := [0]
  wf := dot_S16x2048x2048_S16x2048x768_S16x2048x768_2_1_1_2_0_0_wf

class Facts : Prop extends Facts₀ where

variable [Facts]
-- ==== Proof.KRegion0.lean ====
/- REGION 0 of @main (the first pallas_call, the linear layer `cc0__linear_kernel`), at a PARAMETER `V` — the
   TensorCore's buffer contents when the region is entered —: each window's block at a point (`iblk0`) and the
   kernel's class-A half: the output buffer after the body (`out0_3`), the body's triple (`sound_kernel0`), the
   proof data (`dat0`) and the body obligation (`body_obligation0`). -/
import proofs.«114783_j42880953483477_2_alg».proof.Proof.Gen.Kernel.Launch
import proofs.«114783_j42880953483477_2_alg».proof.Proof.Gen.Kernel.Skeleton
import proofs.«114783_j42880953483477_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (a constant block index: fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (a constant block index: fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x768 := Rect.unit (s := S1024x768) ![0, 0] S1024x768.size inb_S1024x768_S1024x768_0_0
abbrev r0_1 : Rect S768x768 := Rect.unit (s := S768x768) ![0, 0] S768x768.size inb_S768x768_S768x768_0_0
abbrev r0_2 : Rect S768 := Rect.unit (s := S768) ![0] S768.size inb_S768_S768_0

/-! ## What the body leaves in the output window's buffer -/

/-- Window 3's staging buffer after the body, from the input windows' blocks: its one store as a piece, the
    payload the skeleton's. -/
def out0_3 (x0 : Vec F S1024x768 .f32) (x1 : Vec F S768x768 .bf16) (x2 : Vec F S768 .f32) : Vec F S1024x768 .bf16 :=
  View.canon [⟨r0_0, k0_pay1 (View.ld x0 r0_0) (View.ld x1 r0_1) (View.ld x2 r0_2)⟩]

/-- Its store tiles the buffer (checked by evaluation), so it covers it. -/
theorem cover0_3 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S1024x768 .bf16) (harg4 : arg4.IsWhole)
    (x0 : Vec F S1024x768 .f32) (x1 : Vec F S768x768 .bf16) (x2 : Vec F S768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KRegion1Runs.lean ====
/-
  The second kernel region (the attention kernel), the part every case of its body shares.

  The grid is (batch, query tile, key/value tile) = 16 × 2 × 4, walked with the key/value tile innermost, so the
  point numbered t has key/value tile t mod 4.  The body has two conditionals on that coordinate: at tile 0 it
  resets the accumulator scratch and projects the query block into the second scratch; at tile 3 it copies the
  accumulator to the output block.  Between them it adds this tile's contribution to the accumulator.  So a point is in
  one of three cases: first tile, a middle tile, last tile.  The output window is written back only at the last
  tile and is idle elsewhere; both scratch buffers carry their contents from one point to the next.
-/
import proofs.«114783_j42880953483477_2_alg».proof.Proof.Gen.Kernel.Launch
import proofs.«114783_j42880953483477_2_alg».proof.Proof.Gen.Kernel.Skeleton
import proofs.«114783_j42880953483477_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered with
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved and the body left the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "This is the first key/value tile": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value tile": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last tile it is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1x1024x768 .f32 := (Memref.whole cc1_stg5_0 : Memref sig .tc .vmem S1x1024x768 .f32).view
abbrev ms1_0 (t : Fin cfg1.N) : Memref sig .tc .vmem S1x1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x768 .f32 := win1_5.stage (cfg1.slots t 5)
abbrev hs1_5 (t : Fin cfg1.N) : (ms1_5 t).IsWhole := hstage1_5 ((cfg1.slots t 5).cast nbuf1_5)
/-- The two scratch operands: the accumulator and the projected query block. -/
abbrev scM1_0 : Memref sig .tc .vmem S1024x768 .f32 := Memref.whole cc1_scratch0
abbrev scM1_1 : Memref sig .tc .vmem S1024x768 .bf16 := Memref.whole cc1_scratch1
abbrev VS1_0 : View sig .tc .vmem S1024x768 .f32 := scM1_0.view
abbrev VS1_1 : View sig .tc .vmem S1024x768 .bf16 := scM1_1.view

/-- The scoped buffers of the core that this region neither stages through nor uses as scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Eight separating conjuncts regrouped as six and two. -/
theorem regroup8 (a b c d e f g h : sProp 𝕄) :
    (iprop(a ∗ b ∗ c ∗ d ∗ e ∗ f ∗ g ∗ h) : sProp 𝕄) = iprop((a ∗ b ∗ c ∗ d ∗ e ∗ f) ∗ g ∗ h) := by
  have h1 : (iprop(a ∗ b ∗ c ∗ d ∗ e ∗ f ∗ g ∗ h) : sProp 𝕄) ⊢ iprop((a ∗ b ∗ c ∗ d ∗ e ∗ f) ∗ g ∗ h) := by
    iintro ⟨E1, E2, E3, E4, E5, E6, S0, S1⟩
    isplitl [E1 E2 E3 E4 E5 E6]
    · isplitl [E1]; · iexact E1
      isplitl [E2]; · iexact E2
      isplitl [E3]; · iexact E3
      isplitl [E4]; · iexact E4
      isplitl [E5]; · iexact E5
      iexact E6
    isplitl [S0]; · iexact S0
    iexact S1
  have h2 : (iprop((a ∗ b ∗ c ∗ d ∗ e ∗ f) ∗ g ∗ h) : sProp 𝕄) ⊢ iprop(a ∗ b ∗ c ∗ d ∗ e ∗ f ∗ g ∗ h) := by
    iintro ⟨⟨E1, E2, E3, E4, E5, E6⟩, S0, S1⟩
    isplitl [E1]; · iexact E1
    isplitl [E2]; · iexact E2
    isplitl [E3]; · iexact E3
    isplitl [E4]; · iexact E4
    isplitl [E5]; · iexact E5
    isplitl [E6]; · iexact E6
    isplitl [S0]; · iexact S0
    iexact S1
  exact Idealize.SL.BI.Entails.antisymm h1 h2

/-- The region's plain invariant with the two scratch operands as memrefs owned at some contents. -/
theorem PhiA1_eq (c : Dev nD) :
    (Pipeline.ΦA spec1 c : sProp 𝕄)
      = iprop(iprop(others1 (F := F) c ∗ (∃ d, owns (c : Thread nD τ) scM1_0 fullShare d) ∗ (∃ d, owns (c : Thread nD τ) scM1_1 fullShare d)) ∗ (∃ r, prngReg c r)) := by
  unfold Pipeline.ΦA others1; rw [scopedRest1_eq]; simp only [scM1_0, scM1_1, owns_whole]
  refine congrArg (fun X => iprop(X ∗ (∃ r, prngReg c r))) ?_
  exact regroup8 _ _ _ _ _ _ _ _

end Cert.Kernel.Hand

end
-- ==== Proof.KRegion1RunA.lean ====
/-
  The attention kernel's body run whole in one of its three cases (case A); see the module of the shared definitions for
  which points each case covers.
-/
import proofs.«114783_j42880953483477_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the FIRST key/value tile, away from the last: on whole memrefs, the inputs' at their contents, the idle
    output's at contents handed back untouched, both scratch buffers at anything, it runs to the continuation with the inputs'
    as they were and each scratch with the stores it made written into it; the lists of those stores are the witness the run
    finds. -/
noncomputable def kernelRun1_A (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : cond1_0 i) (hc1 : ¬cond1_1 i)
    (x0 : Vec F S1x1024x768 .f32) (x1 : Vec F S768x768 .bf16) (x2 : Vec F S768 .f32) (x3 : Vec F S1x512x768 .bf16) (x4 : Vec F S1x1024x512 .i32) :
    Σ' (LS0 : List (View.Piece (Elt F) S1024x768 .f32)), { LS1 : List (View.Piece (Elt F) S1024x768 .bf16) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Hand

end
-- ==== Proof.KRegion1RunB.lean ====
/-
  The attention kernel's body run whole in one of its three cases (case B); see the module of the shared definitions for
  which points each case covers.
-/
import proofs.«114783_j42880953483477_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a MIDDLE key/value tile: the accumulator scratch at what the point before left is read and
    stored into; the projected-query scratch is read and handed back as it was; the output is idle. -/
noncomputable def kernelRun1_B (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : ¬cond1_0 i) (hc1 : ¬cond1_1 i)
    (x0 : Vec F S1x1024x768 .f32) (x1 : Vec F S768x768 .bf16) (x2 : Vec F S768 .f32) (x3 : Vec F S1x512x768 .bf16) (x4 : Vec F S1x1024x512 .i32) (xs0 : Vec F S1024x768 .f32) (xs1 : Vec F S1024x768 .bf16) :
    { LS0 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.Kernel.Hand

end
-- ==== Proof.KRegion1RunC.lean ====
/-
  The attention kernel's body run whole in one of its three cases (case C); see the module of the shared definitions for
  which points each case covers.
-/
import proofs.«114783_j42880953483477_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the LAST key/value tile: as at a middle tile, and then the accumulator is copied into the output
    block, whose buffer may hold anything before. -/
noncomputable def kernelRun1_C (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : ¬cond1_0 i) (hc1 : cond1_1 i)
    (x0 : Vec F S1x1024x768 .f32) (x1 : Vec F S768x768 .bf16) (x2 : Vec F S768 .f32) (x3 : Vec F S1x512x768 .bf16) (x4 : Vec F S1x1024x512 .i32) (xs0 : Vec F S1024x768 .f32) (xs1 : Vec F S1024x768 .bf16) :
    Σ' (L5 : List (View.Piece (Elt F) S1x1024x768 .f32)), { LS0 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; isplitr; · ipureintro; exact harg10.read_unread _
    iexact HS1

end Cert.Kernel.Hand

end
-- ==== Proof.KRegion1.lean ====
/-
  The second kernel region (the attention kernel): what its buffers hold point by point, the proof data of its
  pipeline, and the body obligation.

  After the point numbered n the accumulator scratch holds, for the current (batch, query tile), the sum of the
  contributions of the key/value tiles walked so far (reset at tile 0), the second scratch holds the projected query
  block computed at tile 0, and at the last tile the output block holds a copy of the accumulator.  These contents are
  defined by recursion on n from what the body's three cases leave; the region's invariant hands the two scratch
  buffers from each point to the next at exactly these contents.
-/
import proofs.«114783_j42880953483477_2_alg».proof.Proof.KRegion1RunA
import proofs.«114783_j42880953483477_2_alg».proof.Proof.KRegion1RunB
import proofs.«114783_j42880953483477_2_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered with
variable (V : (c : Dev nD) → (b : Ref sig .tc) → Buf (Elt F) ((c : Thread nD τ).loc b))

/-! ## The three cases at a point's memrefs and input blocks -/

def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    ((hcond1_0 t).mpr h0) (fun h => h1 ((hcond1_1 t).mp h)) (iblk1 V c 0 t) (iblk1 V c 1 t) (iblk1 V c 2 t) (iblk1 V c 3 t) (iblk1 V c 4 t)
def runB (c : Dev nD) (t : Fin cfg1.N) (h0 : ¬t.val % 4 = 0) (h1 : ¬t.val % 4 = 3) (xs0 : Vec F S1024x768 .f32) (xs1 : Vec F S1024x768 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) xs0 xs1
def runC (c : Dev nD) (t : Fin cfg1.N) (h0 : ¬t.val % 4 = 0) (h1 : t.val % 4 = 3) (xs0 : Vec F S1024x768 .f32) (xs1 : Vec F S1024x768 .bf16) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) xs0 xs1

/-- What the first tile leaves in the accumulator and in the projected-query scratch: its stores read back. -/
def accA (c : Dev nD) (t : Fin cfg1.N) (h0 : t.val % 4 = 0) (h1 : ¬t.val % 4 = 3) : Vec F S1024x768 .f32 :=
  VS1_0.read (Elt F) (VS1_0.writes (Elt F) VS1_0.junk (runA V c t h0 h1).1)
def qbfA (c : Dev nD) (t : Fin cfg1.N) (h0 : t.val % 4 = 0) (h1 : ¬t.val % 4 = 3) : Vec F S1024x768 .bf16 :=
  VS1_1.read (Elt F) (VS1_1.writes (Elt F) VS1_1.junk (runA V c t h0 h1).2.1)
theorem scoverA_0 (c : Dev nD) (t : Fin cfg1.N) (h0 : t.val % 4 = 0) (h1 : ¬t.val % 4 = 3) (y : S1024x768.Idx) :
    ∃ pc ∈ (runA V c t h0 h1).1, y ∈ pc.1.set :=
  View.cover_of_tiledL (runA V c t h0 h1).1 S1024x768.size (by sl_kernel_rfl) y
theorem scoverA_1 (c : Dev nD) (t : Fin cfg1.N) (h0 : t.val % 4 = 0) (h1 : ¬t.val % 4 = 3) (y : S1024x768.Idx) :
    ∃ pc ∈ (runA V c t h0 h1).2.1, y ∈ pc.1.set :=
  View.cover_of_tiledL (runA V c t h0 h1).2.1 S1024x768.size (by sl_kernel_rfl) y

/-- What a middle tile leaves in the accumulator, from what the point before left in the two scratch buffers. -/
def accB (c : Dev nD) (t : Fin cfg1.N) (h0 : ¬t.val % 4 = 0) (h1 : ¬t.val % 4 = 3) (xs0 : Vec F S1024x768 .f32) (xs1 : Vec F S1024x768 .bf16) : Vec F S1024x768 .f32 :=
  VS1_0.read (Elt F) (VS1_0.writes (Elt F) VS1_0.junk (runB V c t h0 h1 xs0 xs1).1)
theorem scoverB_0 (c : Dev nD) (t : Fin cfg1.N) (h0 : ¬t.val % 4 = 0) (h1 : ¬t.val % 4 = 3) (xs0 : Vec F S1024x768 .f32) (xs1 : Vec F S1024x768 .bf16) (y : S1024x768.Idx) :
    ∃ pc ∈ (runB V c t h0 h1 xs0 xs1).1, y ∈ pc.1.set :=
  View.cover_of_tiledL (runB V c t h0 h1 xs0 xs1).1 S1024x768.size (by sl_kernel_rfl) y

/-- What the last tile leaves in the output block and in the accumulator. -/
def outC (c : Dev nD) (t : Fin cfg1.N) (h0 : ¬t.val % 4 = 0) (h1 : t.val % 4 = 3) (xs0 : Vec F S1024x768 .f32) (xs1 : Vec F S1024x768 .bf16) : Vec F S1x1024x768 .f32 :=
  VO1_5.read (Elt F) (VO1_5.writes (Elt F) VO1_5.junk (runC V c t h0 h1 xs0 xs1).1)
def accC (c : Dev nD) (t : Fin cfg1.N) (h0 : ¬t.val % 4 = 0) (h1 : t.val % 4 = 3) (xs0 : Vec F S1024x768 .f32) (xs1 : Vec F S1024x768 .bf16) : Vec F S1024x768 .f32 :=
  VS1_0.read (Elt F) (VS1_0.writes (Elt F) VS1_0.junk (runC V c t h0 h1 xs0 xs1).2.1)
theorem coverC_5 (c : Dev nD) (t : Fin cfg1.N) (h0 : ¬t.val % 4 = 0) (h1 : t.val % 4 = 3) (xs0 : Vec F S1024x768 .f32) (xs1 : Vec F S1024x768 .bf16) (y : S1x1024x768.Idx) :
    ∃ pc ∈ (runC V c t h0 h1 xs0 xs1).1, y ∈ pc.1.set :=
  View.cover_of_tiledL (runC V c t h0 h1 xs0 xs1).1 S1x1024x768.size (by sl_kernel_rfl) y
theorem scoverC_0 (c : Dev nD) (t : Fin cfg1.N) (h0 : ¬t.val % 4 = 0) (h1 : t.val % 4 = 3) (xs0 : Vec F S1024x768 .f32) (xs1 : Vec F S1024x768 .bf16) (y : S1024x768.Idx) :
    ∃ pc ∈ (runC V c t h0 h1 xs0 xs1).2.1, y ∈ pc.1.set :=
  View.cover_of_tiledL (runC V c t h0 h1 xs0 xs1).2.1 S1024x768.size (by sl_kernel_rfl) y

/-- What the output block holds where the body stores nothing into it: never consulted (the window is idle there). -/
def idleOut : Vec F S1x1024x768 .f32 := VO1_5.read (Elt F) VO1_5.junk

/-! ## What the buffers hold after each point -/

/-- After the body at position `n`: (the output block, the accumulator, the projected-query scratch). -/
def outsAt1 (c : Dev nD) : (n : ℕ) → n < cfg1.N → Vec F S1x1024x768 .f32 × Vec F S1024x768 .f32 × Vec F S1024x768 .bf16
  | 0, hn => (idleOut, accA V c ⟨0, hn⟩ (Nat.zero_mod _) (show ¬(0 : ℕ) % 4 = 3 by decide), qbfA V c ⟨0, hn⟩ (Nat.zero_mod _) (show ¬(0 : ℕ) % 4 = 3 by decide))
  | n + 1, hn =>
    if h0 : (n + 1) % 4 = 0 then
      (idleOut, accA V c ⟨n + 1, hn⟩ h0 (show ¬(n + 1) % 4 = 3 by omega), qbfA V c ⟨n + 1, hn⟩ h0 (show ¬(n + 1) % 4 = 3 by omega))
    else
      if h1 : (n + 1) % 4 = 3 then
        (outC V c ⟨n + 1, hn⟩ h0 h1 (outsAt1 c n (Nat.lt_of_succ_lt hn)).2.1 (outsAt1 c n (Nat.lt_of_succ_lt hn)).2.2,
          accC V c ⟨n + 1, hn⟩ h0 h1 (outsAt1 c n (Nat.lt_of_succ_lt hn)).2.1 (outsAt1 c n (Nat.lt_of_succ_lt hn)).2.2,
          (outsAt1 c n (Nat.lt_of_succ_lt hn)).2.2)
      else
        (idleOut,
          accB V c ⟨n + 1, hn⟩ h0 h1 (outsAt1 c n (Nat.lt_of_succ_lt hn)).2.1 (outsAt1 c n (Nat.lt_of_succ_lt hn)).2.2,
          (outsAt1 c n (Nat.lt_of_succ_lt hn)).2.2)

theorem outsAt1_A (c : Dev nD) (t : Fin cfg1.N) (h0 : t.val % 4 = 0) (h1 : ¬t.val % 4 = 3) :
    outsAt1 V c t.val t.isLt = (idleOut, accA V c t h0 h1, qbfA V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut,
      accB V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      accC V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very first point the plain invariant (every scratch at anything); afterwards the two
    scratch buffers at what the point before left, the other scoped buffers at anything, the generator register at some
    state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point.  The inputs' buffers hold their blocks; t mod 4 says which case the point is in; the invariant hands
    the body the two scratch buffers at what the point before left (at anything at the very first point) and takes them back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold accA qbfA; (try dsimp only)
    by_cases hz : t.val = 0
    · rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverA_0 V c t h0 h1)
          unfold owns; iexists _; isplitr
          swap; · iexact HS1
          ipureintro; exact View.read_writes_of_cover _ _ _ _ _ (scoverA_1 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverA_0 V c t h0 h1)
          unfold owns; iexists _; isplitr
          swap; · iexact HS1
          ipureintro; exact View.read_writes_of_cover _ _ _ _ _ (scoverA_1 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC accC; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runC V c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, HS1⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverC_0 V c t h0 h1 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold accB; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runB V c t h0 h1 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverB_0 V c t h0 h1 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.KRun.lean ====
/-
  The whole run of the kernel program: @main is a stretch of host operations, the projection region, a second
  stretch, and the attention region.  The buffer contents at each boundary are a fold from the launch memory: a
  stretch applies its operations, a region replaces each of its windows' arrays by what its write-backs leave.  Each
  region contributes a segment record (its body obligation, and the bookkeeping that takes its arrays out of the
  thread's buffers and puts them back); the launch theorem for a list of segments then gives that every weakly fair
  execution terminates with every unscoped buffer at the last boundary's contents, from which both the frame claim
  (each argument is never written, so it reads back its launch contents) and the result array are read.
-/
import proofs.«114783_j42880953483477_2_alg».proof.Proof.KRegion0
import proofs.«114783_j42880953483477_2_alg».proof.Proof.KRegion1
import proofs.«114783_j42880953483477_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-! ## No host operation and no region writes an argument -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 0).trans (((dat1 (Va3 m ρ) c).arrAt_in 0 rfl _).trans (A_eq1 (Va3 m ρ) c 0))
    _ = Wa2 m ρ c (Proc.devRef .tc main_arg0) := StableHlo.after_of_writes_sub hostOps1 _ hostOps1_writes (by decide)
    _ = Wa1 m ρ c (Proc.devRef .tc main_arg0) := Wa2_of_ne m ρ c main_arg0 (by decide)
    _ = Wa0 m ρ c (Proc.devRef .tc main_arg0) := StableHlo.after_of_writes_sub hostOps0 _ hostOps0_writes (by decide)
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := Wa4_of_ne m ρ c main_arg1 (by decide)
    _ = Wa2 m ρ c (Proc.devRef .tc main_arg1) := StableHlo.after_of_writes_sub hostOps1 _ hostOps1_writes (by decide)
    _ = Wa1 m ρ c (Proc.devRef .tc main_arg1) := Wa2_of_ne m ρ c main_arg1 (by decide)
    _ = Wa0 m ρ c (Proc.devRef .tc main_arg1) := StableHlo.after_of_writes_sub hostOps0 _ hostOps0_writes (by decide)
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := StableHlo.after_of_writes_sub hostOps1 _ hostOps1_writes (by decide)
    _ = Wa1 m ρ c (Proc.devRef .tc main_arg2) := Wa2_of_ne m ρ c main_arg2 (by decide)
    _ = Wa0 m ρ c (Proc.devRef .tc main_arg2) := StableHlo.after_of_writes_sub hostOps0 _ hostOps0_writes (by decide)
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := StableHlo.after_of_writes_sub hostOps1 _ hostOps1_writes (by decide)
    _ = Wa1 m ρ c (Proc.devRef .tc main_arg3) := Wa2_of_ne m ρ c main_arg3 (by decide)
    _ = Wa0 m ρ c (Proc.devRef .tc main_arg3) := StableHlo.after_of_writes_sub hostOps0 _ hostOps0_writes (by decide)
    _ = m ((c : Thread nD τ).loc main_arg3) := rfl
theorem Wa4_main_arg4 (c : Dev nD) : Wa4 m ρ c (Proc.devRef .tc main_arg4) = m ((c : Thread nD τ).loc main_arg4) :=
  calc Wa4 m ρ c (Proc.devRef .tc main_arg4)
    _ = Wa3 m ρ c (Proc.devRef .tc main_arg4) := (Wa4_arr m ρ c 2).trans (((dat1 (Va3 m ρ) c).arrAt_in 2 rfl _).trans (A_eq1 (Va3 m ρ) c 2))
    _ = Wa2 m ρ c (Proc.devRef .tc main_arg4) := StableHlo.after_of_writes_sub hostOps1 _ hostOps1_writes (by decide)
    _ = Wa1 m ρ c (Proc.devRef .tc main_arg4) := Wa2_of_ne m ρ c main_arg4 (by decide)
    _ = Wa0 m ρ c (Proc.devRef .tc main_arg4) := StableHlo.after_of_writes_sub hostOps0 _ hostOps0_writes (by decide)
    _ = m ((c : Thread nD τ).loc main_arg4) := rfl
theorem Wa4_main_arg5 (c : Dev nD) : Wa4 m ρ c (Proc.devRef .tc main_arg5) = m ((c : Thread nD τ).loc main_arg5) :=
  calc Wa4 m ρ c (Proc.devRef .tc main_arg5)
    _ = Wa3 m ρ c (Proc.devRef .tc main_arg5) := Wa4_of_ne m ρ c main_arg5 (by decide)
    _ = Wa2 m ρ c (Proc.devRef .tc main_arg5) := StableHlo.after_of_writes_sub hostOps1 _ hostOps1_writes (by decide)
    _ = Wa1 m ρ c (Proc.devRef .tc main_arg5) := Wa2_of_ne m ρ c main_arg5 (by decide)
    _ = Wa0 m ρ c (Proc.devRef .tc main_arg5) := StableHlo.after_of_writes_sub hostOps0 _ hostOps0_writes (by decide)
    _ = m ((c : Thread nD τ).loc main_arg5) := rfl
theorem Wa4_main_arg6 (c : Dev nD) : Wa4 m ρ c (Proc.devRef .tc main_arg6) = m ((c : Thread nD τ).loc main_arg6) :=
  calc Wa4 m ρ c (Proc.devRef .tc main_arg6)
    _ = Wa3 m ρ c (Proc.devRef .tc main_arg6) := Wa4_of_ne m ρ c main_arg6 (by decide)
    _ = Wa2 m ρ c (Proc.devRef .tc main_arg6) := StableHlo.after_of_writes_sub hostOps1 _ hostOps1_writes (by decide)
    _ = Wa1 m ρ c (Proc.devRef .tc main_arg6) := (Wa2_arr m ρ c 2).trans (((dat0 (Va1 m ρ) c).arrAt_in 2 rfl _).trans (A_eq0 (Va1 m ρ) c 2))
    _ = Wa0 m ρ c (Proc.devRef .tc main_arg6) := StableHlo.after_of_writes_sub hostOps0 _ hostOps0_writes (by decide)
    _ = m ((c : Thread nD τ).loc main_arg6) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va1 m ρ) c
  | ⟨1, _⟩ => fun c => dat1 (Va3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (Va3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Va3 m ρ c) (Va4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (Wa0 m ρ)),
    .region (regH0 m ρ),
    .host (hsegH hostOps1 hostOps1_sub hostOps1_fresh (Wa2 m ρ)),
    .region (regH1 m ρ) ]
theorem main_runH (c : Dev nD) : main (F := F) c = Pipeline.Seg.run (segsH m ρ) := (main_chain c).trans (by chain_rfl)

set_option backward.isDefEq.respectTransparency.types false in
/-- Every weakly fair execution of @main terminates, nothing faulting, and every final memory holds each unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h => h)

/-- The frame claim's post, at any `F`: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucH main_arg0 (by decide))).trans (Wa4_main_arg0 m ρ c),
     (h c _ (mem_ucH main_arg1 (by decide))).trans (Wa4_main_arg1 m ρ c),
     (h c _ (mem_ucH main_arg2 (by decide))).trans (Wa4_main_arg2 m ρ c),
     (h c _ (mem_ucH main_arg3 (by decide))).trans (Wa4_main_arg3 m ρ c),
     (h c _ (mem_ucH main_arg4 (by decide))).trans (Wa4_main_arg4 m ρ c),
     (h c _ (mem_ucH main_arg5 (by decide))).trans (Wa4_main_arg5 m ρ c),
     (h c _ (mem_ucH main_arg6 (by decide))).trans (Wa4_main_arg6 m ρ c)⟩) (run_all m ρ)

/-- The result array after the run: what the attention region's write-backs leave in it. -/
theorem result_v8 (r : PUnit × MemSt nD τ sig (Elt F)) (h : ∀ c : Dev nD, ∀ b ∈ Pipeline.ucRefs τ sig, r.2.mem (((c : Thread nD τ)).1, b) = Wa4 m ρ c b) (c : Dev nD) :
    r.2.mem ((c.tc : Thread nD τ).loc main_v8) = (dat1 (Va3 m ρ) c).arrAt 5 cfg1.N :=
  (h c _ (mem_ucH main_v8 (by decide))).trans (Wa4_arr m ρ c 5)

end Cert.Kernel.Hand

end
-- ==== Proof.KIRegion0.lean ====
/- REGION 0 of @main (the first pallas_call, the linear layer `cc0__linear_kernel`), at a PARAMETER `V` — the
   TensorCore's buffer contents when the region is entered —: each window's block at a point (`iblk0`) and the
   kernel's class-A half: the output buffer after the body (`out0_3`), the body's triple (`sound_kernel0`), the
   proof data (`dat0`) and the body obligation (`body_obligation0`). -/
import proofs.«114783_j42880953483477_2_alg».proof.Proof.Gen.KernelIdeal.Launch
import proofs.«114783_j42880953483477_2_alg».proof.Proof.Gen.KernelIdeal.Skeleton
import proofs.«114783_j42880953483477_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (a constant block index: fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (a constant block index: fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x768 := Rect.unit (s := S1024x768) ![0, 0] S1024x768.size inb_S1024x768_S1024x768_0_0
abbrev r0_1 : Rect S768x768 := Rect.unit (s := S768x768) ![0, 0] S768x768.size inb_S768x768_S768x768_0_0
abbrev r0_2 : Rect S768 := Rect.unit (s := S768) ![0] S768.size inb_S768_S768_0

/-! ## What the body leaves in the output window's buffer -/

/-- Window 3's staging buffer after the body, from the input windows' blocks: its one store as a piece, the
    payload the skeleton's. -/
def out0_3 (x0 : Vec F S1024x768 .f32) (x1 : Vec F S768x768 .bf16) (x2 : Vec F S768 .f32) : Vec F S1024x768 .bf16 :=
  View.canon [⟨r0_0, k0_pay1 (View.ld x0 r0_0) (View.ld x1 r0_1) (View.ld x2 r0_2)⟩]

/-- Its store tiles the buffer (checked by evaluation), so it covers it. -/
theorem cover0_3 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S1024x768 .bf16) (harg4 : arg4.IsWhole)
    (x0 : Vec F S1024x768 .f32) (x1 : Vec F S768x768 .bf16) (x2 : Vec F S768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIRegion1Runs.lean ====
/-
  The second kernel region (the attention kernel), the part every case of its body shares.

  The grid is (batch, query tile, key/value tile) = 16 × 2 × 4, walked with the key/value tile innermost, so the
  point numbered t has key/value tile t mod 4.  The body has two conditionals on that coordinate: at tile 0 it
  resets the accumulator scratch and projects the query block into the second scratch; at tile 3 it copies the
  accumulator to the output block.  Between them it adds this tile's contribution to the accumulator.  So a point is in
  one of three cases: first tile, a middle tile, last tile.  The output window is written back only at the last
  tile and is idle elsewhere; both scratch buffers carry their contents from one point to the next.
-/
import proofs.«114783_j42880953483477_2_alg».proof.Proof.Gen.KernelIdeal.Launch
import proofs.«114783_j42880953483477_2_alg».proof.Proof.Gen.KernelIdeal.Skeleton
import proofs.«114783_j42880953483477_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered with
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved and the body left the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "This is the first key/value tile": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value tile": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last tile it is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1x1024x768 .f32 := (Memref.whole cc1_stg5_0 : Memref sig .tc .vmem S1x1024x768 .f32).view
abbrev ms1_0 (t : Fin cfg1.N) : Memref sig .tc .vmem S1x1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x768 .f32 := win1_5.stage (cfg1.slots t 5)
abbrev hs1_5 (t : Fin cfg1.N) : (ms1_5 t).IsWhole := hstage1_5 ((cfg1.slots t 5).cast nbuf1_5)
/-- The two scratch operands: the accumulator and the projected query block. -/
abbrev scM1_0 : Memref sig .tc .vmem S1024x768 .f32 := Memref.whole cc1_scratch0
abbrev scM1_1 : Memref sig .tc .vmem S1024x768 .bf16 := Memref.whole cc1_scratch1
abbrev VS1_0 : View sig .tc .vmem S1024x768 .f32 := scM1_0.view
abbrev VS1_1 : View sig .tc .vmem S1024x768 .bf16 := scM1_1.view

/-- The scoped buffers of the core that this region neither stages through nor uses as scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Eight separating conjuncts regrouped as six and two. -/
theorem regroup8 (a b c d e f g h : sProp 𝕄) :
    (iprop(a ∗ b ∗ c ∗ d ∗ e ∗ f ∗ g ∗ h) : sProp 𝕄) = iprop((a ∗ b ∗ c ∗ d ∗ e ∗ f) ∗ g ∗ h) := by
  have h1 : (iprop(a ∗ b ∗ c ∗ d ∗ e ∗ f ∗ g ∗ h) : sProp 𝕄) ⊢ iprop((a ∗ b ∗ c ∗ d ∗ e ∗ f) ∗ g ∗ h) := by
    iintro ⟨E1, E2, E3, E4, E5, E6, S0, S1⟩
    isplitl [E1 E2 E3 E4 E5 E6]
    · isplitl [E1]; · iexact E1
      isplitl [E2]; · iexact E2
      isplitl [E3]; · iexact E3
      isplitl [E4]; · iexact E4
      isplitl [E5]; · iexact E5
      iexact E6
    isplitl [S0]; · iexact S0
    iexact S1
  have h2 : (iprop((a ∗ b ∗ c ∗ d ∗ e ∗ f) ∗ g ∗ h) : sProp 𝕄) ⊢ iprop(a ∗ b ∗ c ∗ d ∗ e ∗ f ∗ g ∗ h) := by
    iintro ⟨⟨E1, E2, E3, E4, E5, E6⟩, S0, S1⟩
    isplitl [E1]; · iexact E1
    isplitl [E2]; · iexact E2
    isplitl [E3]; · iexact E3
    isplitl [E4]; · iexact E4
    isplitl [E5]; · iexact E5
    isplitl [E6]; · iexact E6
    isplitl [S0]; · iexact S0
    iexact S1
  exact Idealize.SL.BI.Entails.antisymm h1 h2

/-- The region's plain invariant with the two scratch operands as memrefs owned at some contents. -/
theorem PhiA1_eq (c : Dev nD) :
    (Pipeline.ΦA spec1 c : sProp 𝕄)
      = iprop(iprop(others1 (F := F) c ∗ (∃ d, owns (c : Thread nD τ) scM1_0 fullShare d) ∗ (∃ d, owns (c : Thread nD τ) scM1_1 fullShare d)) ∗ (∃ r, prngReg c r)) := by
  unfold Pipeline.ΦA others1; rw [scopedRest1_eq]; simp only [scM1_0, scM1_1, owns_whole]
  refine congrArg (fun X => iprop(X ∗ (∃ r, prngReg c r))) ?_
  exact regroup8 _ _ _ _ _ _ _ _

end Cert.KernelIdeal.Hand

end
-- ==== Proof.KIRegion1RunA.lean ====
/-
  The attention kernel's body run whole in one of its three cases (case A); see the module of the shared definitions for
  which points each case covers.
-/
import proofs.«114783_j42880953483477_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the FIRST key/value tile, away from the last: on whole memrefs, the inputs' at their contents, the idle
    output's at contents handed back untouched, both scratch buffers at anything, it runs to the continuation with the inputs'
    as they were and each scratch with the stores it made written into it; the lists of those stores are the witness the run
    finds. -/
noncomputable def kernelRun1_A (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : cond1_0 i) (hc1 : ¬cond1_1 i)
    (x0 : Vec F S1x1024x768 .f32) (x1 : Vec F S768x768 .bf16) (x2 : Vec F S768 .f32) (x3 : Vec F S1x512x768 .bf16) (x4 : Vec F S1x1024x512 .i32) :
    Σ' (LS0 : List (View.Piece (Elt F) S1024x768 .f32)), { LS1 : List (View.Piece (Elt F) S1024x768 .bf16) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Hand

end
-- ==== Proof.KIRegion1RunB.lean ====
/-
  The attention kernel's body run whole in one of its three cases (case B); see the module of the shared definitions for
  which points each case covers.
-/
import proofs.«114783_j42880953483477_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a MIDDLE key/value tile: the accumulator scratch at what the point before left is read and
    stored into; the projected-query scratch is read and handed back as it was; the output is idle. -/
noncomputable def kernelRun1_B (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : ¬cond1_0 i) (hc1 : ¬cond1_1 i)
    (x0 : Vec F S1x1024x768 .f32) (x1 : Vec F S768x768 .bf16) (x2 : Vec F S768 .f32) (x3 : Vec F S1x512x768 .bf16) (x4 : Vec F S1x1024x512 .i32) (xs0 : Vec F S1024x768 .f32) (xs1 : Vec F S1024x768 .bf16) :
    { LS0 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.KernelIdeal.Hand

end
-- ==== Proof.KIRegion1RunC.lean ====
/-
  The attention kernel's body run whole in one of its three cases (case C); see the module of the shared definitions for
  which points each case covers.
-/
import proofs.«114783_j42880953483477_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the LAST key/value tile: as at a middle tile, and then the accumulator is copied into the output
    block, whose buffer may hold anything before. -/
noncomputable def kernelRun1_C (c : Dev nD) (i : grid1.Coords) (arg3 : Memref sig .tc .vmem S1x1024x768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x768 .bf16) (harg6 : arg6.IsWhole) (arg7 : Memref sig .tc .vmem S1x1024x512 .i32) (harg7 : arg7.IsWhole) (arg8 : Memref sig .tc .vmem S1x1024x768 .f32) (harg8 : arg8.IsWhole) (arg9 : Memref sig .tc .vmem S1024x768 .f32) (harg9 : arg9.IsWhole) (arg10 : Memref sig .tc .vmem S1024x768 .bf16) (harg10 : arg10.IsWhole) (hc0 : ¬cond1_0 i) (hc1 : cond1_1 i)
    (x0 : Vec F S1x1024x768 .f32) (x1 : Vec F S768x768 .bf16) (x2 : Vec F S768 .f32) (x3 : Vec F S1x512x768 .bf16) (x4 : Vec F S1x1024x512 .i32) (xs0 : Vec F S1024x768 .f32) (xs1 : Vec F S1024x768 .bf16) :
    Σ' (L5 : List (View.Piece (Elt F) S1x1024x768 .f32)), { LS0 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; isplitr; · ipureintro; exact harg10.read_unread _
    iexact HS1

end Cert.KernelIdeal.Hand

end
-- ==== Proof.KIRegion1.lean ====
/-
  The second kernel region (the attention kernel): what its buffers hold point by point, the proof data of its
  pipeline, and the body obligation.

  After the point numbered n the accumulator scratch holds, for the current (batch, query tile), the sum of the
  contributions of the key/value tiles walked so far (reset at tile 0), the second scratch holds the projected query
  block computed at tile 0, and at the last tile the output block holds a copy of the accumulator.  These contents are
  defined by recursion on n from what the body's three cases leave; the region's invariant hands the two scratch
  buffers from each point to the next at exactly these contents.
-/
import proofs.«114783_j42880953483477_2_alg».proof.Proof.KIRegion1RunA
import proofs.«114783_j42880953483477_2_alg».proof.Proof.KIRegion1RunB
import proofs.«114783_j42880953483477_2_alg».proof.Proof.KIRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents the region is entered with
variable (V : (c : Dev nD) → (b : Ref sig .tc) → Buf (Elt F) ((c : Thread nD τ).loc b))

/-! ## The three cases at a point's memrefs and input blocks -/

def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    ((hcond1_0 t).mpr h0) (fun h => h1 ((hcond1_1 t).mp h)) (iblk1 V c 0 t) (iblk1 V c 1 t) (iblk1 V c 2 t) (iblk1 V c 3 t) (iblk1 V c 4 t)
def runB (c : Dev nD) (t : Fin cfg1.N) (h0 : ¬t.val % 4 = 0) (h1 : ¬t.val % 4 = 3) (xs0 : Vec F S1024x768 .f32) (xs1 : Vec F S1024x768 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) xs0 xs1
def runC (c : Dev nD) (t : Fin cfg1.N) (h0 : ¬t.val % 4 = 0) (h1 : t.val % 4 = 3) (xs0 : Vec F S1024x768 .f32) (xs1 : Vec F S1024x768 .bf16) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) xs0 xs1

/-- What the first tile leaves in the accumulator and in the projected-query scratch: its stores read back. -/
def accA (c : Dev nD) (t : Fin cfg1.N) (h0 : t.val % 4 = 0) (h1 : ¬t.val % 4 = 3) : Vec F S1024x768 .f32 :=
  VS1_0.read (Elt F) (VS1_0.writes (Elt F) VS1_0.junk (runA V c t h0 h1).1)
def qbfA (c : Dev nD) (t : Fin cfg1.N) (h0 : t.val % 4 = 0) (h1 : ¬t.val % 4 = 3) : Vec F S1024x768 .bf16 :=
  VS1_1.read (Elt F) (VS1_1.writes (Elt F) VS1_1.junk (runA V c t h0 h1).2.1)
theorem scoverA_0 (c : Dev nD) (t : Fin cfg1.N) (h0 : t.val % 4 = 0) (h1 : ¬t.val % 4 = 3) (y : S1024x768.Idx) :
    ∃ pc ∈ (runA V c t h0 h1).1, y ∈ pc.1.set :=
  View.cover_of_tiledL (runA V c t h0 h1).1 S1024x768.size (by sl_kernel_rfl) y
theorem scoverA_1 (c : Dev nD) (t : Fin cfg1.N) (h0 : t.val % 4 = 0) (h1 : ¬t.val % 4 = 3) (y : S1024x768.Idx) :
    ∃ pc ∈ (runA V c t h0 h1).2.1, y ∈ pc.1.set :=
  View.cover_of_tiledL (runA V c t h0 h1).2.1 S1024x768.size (by sl_kernel_rfl) y

/-- What a middle tile leaves in the accumulator, from what the point before left in the two scratch buffers. -/
def accB (c : Dev nD) (t : Fin cfg1.N) (h0 : ¬t.val % 4 = 0) (h1 : ¬t.val % 4 = 3) (xs0 : Vec F S1024x768 .f32) (xs1 : Vec F S1024x768 .bf16) : Vec F S1024x768 .f32 :=
  VS1_0.read (Elt F) (VS1_0.writes (Elt F) VS1_0.junk (runB V c t h0 h1 xs0 xs1).1)
theorem scoverB_0 (c : Dev nD) (t : Fin cfg1.N) (h0 : ¬t.val % 4 = 0) (h1 : ¬t.val % 4 = 3) (xs0 : Vec F S1024x768 .f32) (xs1 : Vec F S1024x768 .bf16) (y : S1024x768.Idx) :
    ∃ pc ∈ (runB V c t h0 h1 xs0 xs1).1, y ∈ pc.1.set :=
  View.cover_of_tiledL (runB V c t h0 h1 xs0 xs1).1 S1024x768.size (by sl_kernel_rfl) y

/-- What the last tile leaves in the output block and in the accumulator. -/
def outC (c : Dev nD) (t : Fin cfg1.N) (h0 : ¬t.val % 4 = 0) (h1 : t.val % 4 = 3) (xs0 : Vec F S1024x768 .f32) (xs1 : Vec F S1024x768 .bf16) : Vec F S1x1024x768 .f32 :=
  VO1_5.read (Elt F) (VO1_5.writes (Elt F) VO1_5.junk (runC V c t h0 h1 xs0 xs1).1)
def accC (c : Dev nD) (t : Fin cfg1.N) (h0 : ¬t.val % 4 = 0) (h1 : t.val % 4 = 3) (xs0 : Vec F S1024x768 .f32) (xs1 : Vec F S1024x768 .bf16) : Vec F S1024x768 .f32 :=
  VS1_0.read (Elt F) (VS1_0.writes (Elt F) VS1_0.junk (runC V c t h0 h1 xs0 xs1).2.1)
theorem coverC_5 (c : Dev nD) (t : Fin cfg1.N) (h0 : ¬t.val % 4 = 0) (h1 : t.val % 4 = 3) (xs0 : Vec F S1024x768 .f32) (xs1 : Vec F S1024x768 .bf16) (y : S1x1024x768.Idx) :
    ∃ pc ∈ (runC V c t h0 h1 xs0 xs1).1, y ∈ pc.1.set :=
  View.cover_of_tiledL (runC V c t h0 h1 xs0 xs1).1 S1x1024x768.size (by sl_kernel_rfl) y
theorem scoverC_0 (c : Dev nD) (t : Fin cfg1.N) (h0 : ¬t.val % 4 = 0) (h1 : t.val % 4 = 3) (xs0 : Vec F S1024x768 .f32) (xs1 : Vec F S1024x768 .bf16) (y : S1024x768.Idx) :
    ∃ pc ∈ (runC V c t h0 h1 xs0 xs1).2.1, y ∈ pc.1.set :=
  View.cover_of_tiledL (runC V c t h0 h1 xs0 xs1).2.1 S1024x768.size (by sl_kernel_rfl) y

/-- What the output block holds where the body stores nothing into it: never consulted (the window is idle there). -/
def idleOut : Vec F S1x1024x768 .f32 := VO1_5.read (Elt F) VO1_5.junk

/-! ## What the buffers hold after each point -/

/-- After the body at position `n`: (the output block, the accumulator, the projected-query scratch). -/
def outsAt1 (c : Dev nD) : (n : ℕ) → n < cfg1.N → Vec F S1x1024x768 .f32 × Vec F S1024x768 .f32 × Vec F S1024x768 .bf16
  | 0, hn => (idleOut, accA V c ⟨0, hn⟩ (Nat.zero_mod _) (show ¬(0 : ℕ) % 4 = 3 by decide), qbfA V c ⟨0, hn⟩ (Nat.zero_mod _) (show ¬(0 : ℕ) % 4 = 3 by decide))
  | n + 1, hn =>
    if h0 : (n + 1) % 4 = 0 then
      (idleOut, accA V c ⟨n + 1, hn⟩ h0 (show ¬(n + 1) % 4 = 3 by omega), qbfA V c ⟨n + 1, hn⟩ h0 (show ¬(n + 1) % 4 = 3 by omega))
    else
      if h1 : (n + 1) % 4 = 3 then
        (outC V c ⟨n + 1, hn⟩ h0 h1 (outsAt1 c n (Nat.lt_of_succ_lt hn)).2.1 (outsAt1 c n (Nat.lt_of_succ_lt hn)).2.2,
          accC V c ⟨n + 1, hn⟩ h0 h1 (outsAt1 c n (Nat.lt_of_succ_lt hn)).2.1 (outsAt1 c n (Nat.lt_of_succ_lt hn)).2.2,
          (outsAt1 c n (Nat.lt_of_succ_lt hn)).2.2)
      else
        (idleOut,
          accB V c ⟨n + 1, hn⟩ h0 h1 (outsAt1 c n (Nat.lt_of_succ_lt hn)).2.1 (outsAt1 c n (Nat.lt_of_succ_lt hn)).2.2,
          (outsAt1 c n (Nat.lt_of_succ_lt hn)).2.2)

theorem outsAt1_A (c : Dev nD) (t : Fin cfg1.N) (h0 : t.val % 4 = 0) (h1 : ¬t.val % 4 = 3) :
    outsAt1 V c t.val t.isLt = (idleOut, accA V c t h0 h1, qbfA V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut,
      accB V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      accC V c t h0 h1 (outsAt1 V c (t.val - 1) (Nat.lt_of_le_of_lt (Nat.sub_le _ _) t.isLt)).2.1 (outsAt1 V c (t.val - 1) (Nat.lt_of_le_of_lt (Nat.sub_le _ _) t.isLt)).2.2,
      (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very first point the plain invariant (every scratch at anything); afterwards the two
    scratch buffers at what the point before left, the other scoped buffers at anything, the generator register at some
    state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point.  The inputs' buffers hold their blocks; t mod 4 says which case the point is in; the invariant hands
    the body the two scratch buffers at what the point before left (at anything at the very first point) and takes them back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold accA qbfA; (try dsimp only)
    by_cases hz : t.val = 0
    · rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverA_0 V c t h0 h1)
          unfold owns; iexists _; isplitr
          swap; · iexact HS1
          ipureintro; exact View.read_writes_of_cover _ _ _ _ _ (scoverA_1 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverA_0 V c t h0 h1)
          unfold owns; iexists _; isplitr
          swap; · iexact HS1
          ipureintro; exact View.read_writes_of_cover _ _ _ _ _ (scoverA_1 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC accC; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runC V c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, HS1⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverC_0 V c t h0 h1 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold accB; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runB V c t h0 h1 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scoverB_0 V c t h0 h1 _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.KIRun.lean ====
/-
  The whole run of the kernel program: @main is a stretch of host operations, the projection region, a second
  stretch, and the attention region.  The buffer contents at each boundary are a fold from the launch memory: a
  stretch applies its operations, a region replaces each of its windows' arrays by what its write-backs leave.  Each
  region contributes a segment record (its body obligation, and the bookkeeping that takes its arrays out of the
  thread's buffers and puts them back); the launch theorem for a list of segments then gives that every weakly fair
  execution terminates with every unscoped buffer at the last boundary's contents, from which both the frame claim
  (each argument is never written, so it reads back its launch contents) and the result array are read.
-/
import proofs.«114783_j42880953483477_2_alg».proof.Proof.KIRegion0
import proofs.«114783_j42880953483477_2_alg».proof.Proof.KIRegion1
import proofs.«114783_j42880953483477_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-! ## No host operation and no region writes an argument -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 0).trans (((dat1 (Va3 m ρ) c).arrAt_in 0 rfl _).trans (A_eq1 (Va3 m ρ) c 0))
    _ = Wa2 m ρ c (Proc.devRef .tc main_arg0) := StableHlo.after_of_writes_sub hostOps1 _ hostOps1_writes (by decide)
    _ = Wa1 m ρ c (Proc.devRef .tc main_arg0) := Wa2_of_ne m ρ c main_arg0 (by decide)
    _ = Wa0 m ρ c (Proc.devRef .tc main_arg0) := StableHlo.after_of_writes_sub hostOps0 _ hostOps0_writes (by decide)
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := Wa4_of_ne m ρ c main_arg1 (by decide)
    _ = Wa2 m ρ c (Proc.devRef .tc main_arg1) := StableHlo.after_of_writes_sub hostOps1 _ hostOps1_writes (by decide)
    _ = Wa1 m ρ c (Proc.devRef .tc main_arg1) := Wa2_of_ne m ρ c main_arg1 (by decide)
    _ = Wa0 m ρ c (Proc.devRef .tc main_arg1) := StableHlo.after_of_writes_sub hostOps0 _ hostOps0_writes (by decide)
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := StableHlo.after_of_writes_sub hostOps1 _ hostOps1_writes (by decide)
    _ = Wa1 m ρ c (Proc.devRef .tc main_arg2) := Wa2_of_ne m ρ c main_arg2 (by decide)
    _ = Wa0 m ρ c (Proc.devRef .tc main_arg2) := StableHlo.after_of_writes_sub hostOps0 _ hostOps0_writes (by decide)
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := StableHlo.after_of_writes_sub hostOps1 _ hostOps1_writes (by decide)
    _ = Wa1 m ρ c (Proc.devRef .tc main_arg3) := Wa2_of_ne m ρ c main_arg3 (by decide)
    _ = Wa0 m ρ c (Proc.devRef .tc main_arg3) := StableHlo.after_of_writes_sub hostOps0 _ hostOps0_writes (by decide)
    _ = m ((c : Thread nD τ).loc main_arg3) := rfl
theorem Wa4_main_arg4 (c : Dev nD) : Wa4 m ρ c (Proc.devRef .tc main_arg4) = m ((c : Thread nD τ).loc main_arg4) :=
  calc Wa4 m ρ c (Proc.devRef .tc main_arg4)
    _ = Wa3 m ρ c (Proc.devRef .tc main_arg4) := (Wa4_arr m ρ c 2).trans (((dat1 (Va3 m ρ) c).arrAt_in 2 rfl _).trans (A_eq1 (Va3 m ρ) c 2))
    _ = Wa2 m ρ c (Proc.devRef .tc main_arg4) := StableHlo.after_of_writes_sub hostOps1 _ hostOps1_writes (by decide)
    _ = Wa1 m ρ c (Proc.devRef .tc main_arg4) := Wa2_of_ne m ρ c main_arg4 (by decide)
    _ = Wa0 m ρ c (Proc.devRef .tc main_arg4) := StableHlo.after_of_writes_sub hostOps0 _ hostOps0_writes (by decide)
    _ = m ((c : Thread nD τ).loc main_arg4) := rfl
theorem Wa4_main_arg5 (c : Dev nD) : Wa4 m ρ c (Proc.devRef .tc main_arg5) = m ((c : Thread nD τ).loc main_arg5) :=
  calc Wa4 m ρ c (Proc.devRef .tc main_arg5)
    _ = Wa3 m ρ c (Proc.devRef .tc main_arg5) := Wa4_of_ne m ρ c main_arg5 (by decide)
    _ = Wa2 m ρ c (Proc.devRef .tc main_arg5) := StableHlo.after_of_writes_sub hostOps1 _ hostOps1_writes (by decide)
    _ = Wa1 m ρ c (Proc.devRef .tc main_arg5) := Wa2_of_ne m ρ c main_arg5 (by decide)
    _ = Wa0 m ρ c (Proc.devRef .tc main_arg5) := StableHlo.after_of_writes_sub hostOps0 _ hostOps0_writes (by decide)
    _ = m ((c : Thread nD τ).loc main_arg5) := rfl
theorem Wa4_main_arg6 (c : Dev nD) : Wa4 m ρ c (Proc.devRef .tc main_arg6) = m ((c : Thread nD τ).loc main_arg6) :=
  calc Wa4 m ρ c (Proc.devRef .tc main_arg6)
    _ = Wa3 m ρ c (Proc.devRef .tc main_arg6) := Wa4_of_ne m ρ c main_arg6 (by decide)
    _ = Wa2 m ρ c (Proc.devRef .tc main_arg6) := StableHlo.after_of_writes_sub hostOps1 _ hostOps1_writes (by decide)
    _ = Wa1 m ρ c (Proc.devRef .tc main_arg6) := (Wa2_arr m ρ c 2).trans (((dat0 (Va1 m ρ) c).arrAt_in 2 rfl _).trans (A_eq0 (Va1 m ρ) c 2))
    _ = Wa0 m ρ c (Proc.devRef .tc main_arg6) := StableHlo.after_of_writes_sub hostOps0 _ hostOps0_writes (by decide)
    _ = m ((c : Thread nD τ).loc main_arg6) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va1 m ρ) c
  | ⟨1, _⟩ => fun c => dat1 (Va3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (Va3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Va3 m ρ c) (Va4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (Wa0 m ρ)),
    .region (regH0 m ρ),
    .host (hsegH hostOps1 hostOps1_sub hostOps1_fresh (Wa2 m ρ)),
    .region (regH1 m ρ) ]
theorem main_runH (c : Dev nD) : main (F := F) c = Pipeline.Seg.run (segsH m ρ) := (main_chain c).trans (by chain_rfl)

set_option backward.isDefEq.respectTransparency.types false in
/-- Every weakly fair execution of @main terminates, nothing faulting, and every final memory holds each unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h => h)

/-- The frame claim's post, at any `F`: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucH main_arg0 (by decide))).trans (Wa4_main_arg0 m ρ c),
     (h c _ (mem_ucH main_arg1 (by decide))).trans (Wa4_main_arg1 m ρ c),
     (h c _ (mem_ucH main_arg2 (by decide))).trans (Wa4_main_arg2 m ρ c),
     (h c _ (mem_ucH main_arg3 (by decide))).trans (Wa4_main_arg3 m ρ c),
     (h c _ (mem_ucH main_arg4 (by decide))).trans (Wa4_main_arg4 m ρ c),
     (h c _ (mem_ucH main_arg5 (by decide))).trans (Wa4_main_arg5 m ρ c),
     (h c _ (mem_ucH main_arg6 (by decide))).trans (Wa4_main_arg6 m ρ c)⟩) (run_all m ρ)

/-- The result array after the run: what the attention region's write-backs leave in it. -/
theorem result_v8 (r : PUnit × MemSt nD τ sig (Elt F)) (h : ∀ c : Dev nD, ∀ b ∈ Pipeline.ucRefs τ sig, r.2.mem (((c : Thread nD τ)).1, b) = Wa4 m ρ c b) (c : Dev nD) :
    r.2.mem ((c.tc : Thread nD τ).loc main_v8) = (dat1 (Va3 m ρ) c).arrAt 5 cfg1.N :=
  (h c _ (mem_ucH main_v8 (by decide))).trans (Wa4_arr m ρ c 5)

end Cert.KernelIdeal.Hand

end
-- ==== Proof.KIHost.lean ====
/-
  What the host operations around the two regions leave in the buffers the regions read, at the ideal instance.

  Before the projection region: the value weights transposed (entry (k, e) of the transposed matrix is entry (e, k) of
  the weights) and changed of format (the identity on extended reals), the values recast from [16, 2048, 768] to
  [32768, 768]; the query weights likewise transposed.  Between the regions: the projection's output recast to
  [16, 2048, 768], and the mask's bits widened to 32-bit words.  No host operation writes an argument.
-/
import proofs.«114783_j42880953483477_2_alg».proof.Proof.KIRun
import Idealize.ShloMosaic.Lib.StableHlo.Run

noncomputable section

namespace Cert.KernelIdeal.HandH

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Entering the projection region -/

theorem Va1_v4 (c : Dev nD) : Va1 m ρ c main_v4
    = shapeCast S32768x768 (m ((c : Thread nD τ).loc main_arg1)) shapeCasts_S16x2048x768_S32768x768 := by
  show StableHlo.after (hostOps0 (F := F)) (fun b => m ((c : Dev nD), b)) (Proc.devRef .tc main_v4) = _
  dsimp only [hostOps0]
  after_results
  rfl

theorem Va1_v3 (c : Dev nD) : Va1 m ρ c main_v3
    = truncf .bf16 (transpose S768x768 [1, 0] (m ((c : Thread nD τ).loc main_arg5)) transposes_S768x768_S768x768_1_0) bitsLt_bf16_f32 := by
  show StableHlo.after (hostOps0 (F := F)) (fun b => m ((c : Dev nD), b)) (Proc.devRef .tc main_v3) = _
  dsimp only [hostOps0]
  after_results

theorem Va1_arg6 (c : Dev nD) : Va1 m ρ c main_arg6 = m ((c : Thread nD τ).loc main_arg6) :=
  StableHlo.after_of_writes_sub hostOps0 _ hostOps0_writes (by decide)

theorem Wa1_v1 (c : Dev nD) : Wa1 m ρ c (Proc.devRef .tc main_v1)
    = truncf .bf16 (transpose S768x768 [1, 0] (m ((c : Thread nD τ).loc main_arg3)) transposes_S768x768_S768x768_1_0) bitsLt_bf16_f32 := by
  show StableHlo.after (hostOps0 (F := F)) (fun b => m ((c : Dev nD), b)) (Proc.devRef .tc main_v1) = _
  dsimp only [hostOps0]
  after_results

/-! ## Entering the attention region -/

theorem Va3_arg0 (c : Dev nD) : Va3 m ρ c main_arg0 = m ((c : Thread nD τ).loc main_arg0) :=
  calc Wa3 m ρ c (Proc.devRef .tc main_arg0)
    _ = Wa2 m ρ c (Proc.devRef .tc main_arg0) := StableHlo.after_of_writes_sub hostOps1 _ hostOps1_writes (by decide)
    _ = Wa1 m ρ c (Proc.devRef .tc main_arg0) := Wa2_of_ne m ρ c main_arg0 (by decide)
    _ = Wa0 m ρ c (Proc.devRef .tc main_arg0) := StableHlo.after_of_writes_sub hostOps0 _ hostOps0_writes (by decide)
    _ = m ((c : Thread nD τ).loc main_arg0) := rfl

theorem Va3_arg4 (c : Dev nD) : Va3 m ρ c main_arg4 = m ((c : Thread nD τ).loc main_arg4) :=
  calc Wa3 m ρ c (Proc.devRef .tc main_arg4)
    _ = Wa2 m ρ c (Proc.devRef .tc main_arg4) := StableHlo.after_of_writes_sub hostOps1 _ hostOps1_writes (by decide)
    _ = Wa1 m ρ c (Proc.devRef .tc main_arg4) := Wa2_of_ne m ρ c main_arg4 (by decide)
    _ = Wa0 m ρ c (Proc.devRef .tc main_arg4) := StableHlo.after_of_writes_sub hostOps0 _ hostOps0_writes (by decide)
    _ = m ((c : Thread nD τ).loc main_arg4) := rfl

theorem Va3_v1 (c : Dev nD) : Va3 m ρ c main_v1
    = truncf .bf16 (transpose S768x768 [1, 0] (m ((c : Thread nD τ).loc main_arg3)) transposes_S768x768_S768x768_1_0) bitsLt_bf16_f32 :=
  calc Wa3 m ρ c (Proc.devRef .tc main_v1)
    _ = Wa2 m ρ c (Proc.devRef .tc main_v1) := StableHlo.after_of_writes_sub hostOps1 _ hostOps1_writes (by decide)
    _ = Wa1 m ρ c (Proc.devRef .tc main_v1) := Wa2_of_ne m ρ c main_v1 (by decide)
    _ = _ := Wa1_v1 m ρ c

theorem Va3_v6 (c : Dev nD) : Va3 m ρ c main_v6
    = shapeCast S16x2048x768 ((dat0 (Va1 m ρ) c).arrAt 3 cfg0.N) shapeCasts_S32768x768_S16x2048x768 := by
  rw [← Wa2_arr m ρ c 3]
  show StableHlo.after (hostOps1 (F := F)) (Wa2 m ρ c) (Proc.devRef .tc main_v6) = _
  generalize Wa2 m ρ c = W
  dsimp only [hostOps1]
  after_results
  rfl

theorem Va3_v7 (c : Dev nD) : Va3 m ρ c main_v7 = extui 32 (m ((c : Thread nD τ).loc main_arg2)) natLt_1_32 := by
  have e : Wa2 m ρ c (Proc.devRef .tc main_arg2) = m ((c : Thread nD τ).loc main_arg2) :=
    (Wa2_of_ne m ρ c main_arg2 (by decide)).trans (StableHlo.after_of_writes_sub hostOps0 _ hostOps0_writes (by decide))
  rw [← e]
  show StableHlo.after (hostOps1 (F := F)) (Wa2 m ρ c) (Proc.devRef .tc main_v7) = _
  generalize Wa2 m ρ c = W
  dsimp only [hostOps1]
  after_results

end Cert.KernelIdeal.HandH

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.KIRegion0Value.lean ====
/- The value of REGION 0 (the linear layer) on the extended reals: the body's payload read at an entry is the
   sum over the contracted axis of the products of the operands' entries plus the bias of the entry's column, and
   the output array after the last grid point is that function of the three input arrays as the region finds them,
   entry by entry (each grid point writes one block of 1024 rows, and the blocks tile the array). -/
import proofs.«114783_j42880953483477_2_alg».proof.Proof.KIRegion0
import proofs.«114783_j42880953483477_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand0V

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! ## The payload at an entry -/

/-- The printed contraction record is the plain M×K by K×N one. -/
theorem dot_plain : dot_S1024x768_S768x768_S1024x768_1_0_0_1_n_n = DotDims.plain 1024 768 768 := rfl

/-- The payload at entry (p, e): the sum over k of x(p, k) · w(k, e), plus the bias at e. The changes of float
    format and the casts to the same shape are the identity on the extended reals; the product into the zero
    accumulator is the sum; the bias row is broadcast over the rows. -/
theorem pay1_apply (v0 : Vec Ideal S1024x768 .f32) (v3 : Vec Ideal S768x768 .bf16) (v6 : Vec Ideal S768 .f32) (p : Fin 1024) (e : Fin 768) :
    Gen.k0_pay1 (F := Ideal) v0 v3 v6 (ix2 p e) = (∑ k : Fin 768, v0 (ix2 p k) * v3 (ix2 k e)) + v6 (ix1 e) := by
  unfold Gen.k0_pay1
  show addf (matmul dot_S1024x768_S768x768_S1024x768_1_0_0_1_n_n none (truncf .bf16 (shapeCast S1024x768 v0 shapeCasts_S1024x768_S1024x768) bitsLt_bf16_f32) (shapeCast S768x768 v3 shapeCasts_S768x768_S768x768) (constant (F := Ideal) S1024x768 .f32 0x00000000#32)) (broadcastTo S1024x768 (shapeCast S1x768 v6 shapeCasts_S768_S1x768) broadcasts_S1x768_S1024x768) (ix2 p e) = _
  rw [shapeCast_self, shapeCast_self, dot_plain]
  refine (congrFun (Cert.Dense.addf_matmul_broadcastTo none _ _ _ _) (ix2 p e)).trans ?_
  show Cert.Dense.mm _ _ (ix2 p e) + shapeCast S1x768 v6 shapeCasts_S768_S1x768 (ix2 (0 : Fin 1) e) = _
  rw [shapeCast_a_1a_apply]
  rfl

/-! ## From blocks to the array -/

section Array

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the output array ends holding: the affine layer of the three input arrays, entry by entry. -/
abbrev G0 (a0 : S32768x768.Idx → EReal) (a1 : S768x768.Idx → EReal) (a2 : S768.Idx → EReal) : S32768x768.Idx → EReal :=
  fun i => (∑ k : Fin 768, a0 (ix2 (i 0) k) * a1 (ix2 k (i 1))) + a2 (ix1 (i 1))

/-- A block of rows of the layer is the layer at those rows: when block row p is array row `i 0`, the entry's column
    is `i 1`, the weights and the bias are whole, the block's affine value at (p, e) is the array's at `i`. -/
theorem affine_block (x0 : S1024x768.Idx → EReal) (x1 : S768x768.Idx → EReal) (x2 : S768.Idx → EReal)
    (A : S32768x768.Idx → EReal) (W : S768x768.Idx → EReal) (b : S768.Idx → EReal) (p : Fin 1024) (e : Fin 768) (i : S32768x768.Idx)
    (h1 : i 1 = e) (h0 : ∀ k : Fin 768, x0 (ix2 p k) = A (ix2 (i 0) k)) (hw : ∀ k : Fin 768, x1 (ix2 k e) = W (ix2 k e))
    (hb : x2 (ix1 e) = b (ix1 e)) :
    (∑ k : Fin 768, x0 (ix2 p k) * x1 (ix2 k e)) + x2 (ix1 e) = G0 A W b i := by
  obtain ⟨r, e', rfl⟩ : ∃ (r : Fin 32768) (e' : Fin 768), i = ix2 r e' := ⟨i 0, i 1, eq_ix2 i⟩
  obtain rfl : e' = e := h1
  show (∑ k : Fin 768, x0 (ix2 p k) * x1 (ix2 k e')) + x2 (ix1 e') = (∑ k : Fin 768, A (ix2 r k) * W (ix2 k e')) + b (ix1 e')
  rw [hb]
  exact congrArg (· + b (ix1 e')) (Finset.sum_congr rfl fun k _ => by rw [h0 k, hw k])

/-- The printed index maps, decided over the grid: the activations' block moves with the output's, the weights and
    the bias stay at block 0, and the output's block index is the point on the row axis and 0 on the column axis. -/
theorem idx_facts0 : ∀ t : Fin cfg0.N, win0_0.index t (0 : Fin 2) = win0_3.index t (0 : Fin 2) + 0
    ∧ win0_0.index t (1 : Fin 2) = win0_3.index t (1 : Fin 2) + 0
    ∧ win0_1.index t (0 : Fin 2) = 0
    ∧ win0_1.index t (1 : Fin 2) = 0
    ∧ win0_2.index t (0 : Fin 1) = 0
    ∧ 0 ≤ win0_3.index t (0 : Fin 2) ∧ win0_3.index t (0 : Fin 2) ≤ 31
    ∧ 0 ≤ win0_3.index t (1 : Fin 2) ∧ win0_3.index t (1 : Fin 2) ≤ 0 :=
  (by decide +kernel : ∀ t : Fin grid0.N, _)

/-- Every block of the array is SOME point's. -/
theorem idx_onto0 : ∀ (q0 : Fin 32) (q1 : Fin 1), ∃ t : Fin cfg0.N, win0_3.index t = ![q0.val + 0, q1.val + 0] :=
  (by decide +kernel : ∀ (q0 : Fin 32) (q1 : Fin 1), ∃ t : Fin grid0.N, win0_3.index t = ![q0.val + 0, q1.val + 0])

/-- WHAT POINT `t` WRITES BACK is block `t` of the affine layer of the input arrays as the region finds them. -/
theorem flushed3_eq (c : Dev nD) (t : Fin cfg0.N) :
    (dat0 V c).flushed 3 t = ((cfg0.win 3).blk t).view.read (Elt Ideal) (G0 (V c main_v4) (V c main_v3) (V c main_arg6)) := by
  show (cfg0.win 3).cut (grid0.coords t) ((dat0 V c).after 3 t) = _
  rw [after0_3]
  unfold out0_3
  rw [View.canon_unit_zero hz2]
  simp only [View.ld_unit_zero (S := S1024x768) hz2, View.ld_unit_zero (S := S768x768) hz2, View.ld_unit_zero (S := S768) hz1]
  obtain ⟨e0, e1, e2, e3, e4, e5, e6, e7, e8⟩ := idx_facts0 t
  funext j
  obtain ⟨p, e, rfl⟩ : ∃ (p : Fin 1024) (e : Fin 768), j = ix2 p e := ⟨j 0, j 1, eq_ix2 j⟩
  show Gen.k0_pay1 (F := Ideal) (iblk0 V c 0 t) (iblk0 V c 1 t) (iblk0 V c 2 t) (ix2 p e)
    = G0 (V c main_v4) (V c main_v3) (V c main_arg6) (((cfg0.win 3).blk t).view.emb (ix2 p e))
  refine (pay1_apply _ _ _ p e).trans ?_
  have he1 : (((cfg0.win 3).blk t).view.emb (ix2 p e)) 1 = e := Fin.ext (by
    show win0_3.index t (1 : Fin 2) * 768 + 1 * e.val = e.val; omega)
  have r0 : ∀ k : Fin 768, iblk0 V c 0 t (ix2 p k)
      = (V c main_v4 : S32768x768.Idx → EReal) (ix2 ((((cfg0.win 3).blk t).view.emb (ix2 p e)) 0) k) := fun k => by
    show (V c main_v4 : S32768x768.Idx → EReal) (((cfg0.win 0).blk t).view.emb (ix2 p k)) = _
    refine congrArg _ ?_
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 768 + 1 * k.val = k.val; omega
  have r1 : ∀ k : Fin 768, iblk0 V c 1 t (ix2 k e) = (V c main_v3 : S768x768.Idx → EReal) (ix2 k e) := fun k => by
    show (V c main_v3 : S768x768.Idx → EReal) (((cfg0.win 1).blk t).view.emb (ix2 k e)) = _
    refine congrArg _ ?_
    funext a; apply Fin.ext
    match a with
    | ⟨0, _⟩ => show win0_1.index t (0 : Fin 2) * 768 + 1 * k.val = k.val; omega
    | ⟨1, _⟩ => show win0_1.index t (1 : Fin 2) * 768 + 1 * e.val = e.val; omega
  have r2 : iblk0 V c 2 t (ix1 e) = (V c main_arg6 : S768.Idx → EReal) (ix1 e) := by
    show (V c main_arg6 : S768.Idx → EReal) (((cfg0.win 2).blk t).view.emb (ix1 e)) = _
    refine congrArg _ ?_
    funext a; apply Fin.ext
    match a with
    | ⟨0, _⟩ => show win0_2.index t (0 : Fin 1) * 768 + 1 * e.val = e.val; omega
  exact affine_block _ _ _ _ _ _ p e _ he1 r0 r1 r2

/-- An index of the array is in point `t`'s block iff each coordinate is in the block's range on its axis. -/
theorem mem_blk3 (t : Fin cfg0.N) (i : S32768x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v5).slice (win0_3.rect t)).set ↔ _
  rw [View.set_slice_whole, Rect.mem_set_unit]
  exact Iff.rfl

/-- The blocks cover the array: row r is in the block of the point r / 1024. -/
theorem covered3 (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  obtain ⟨t, ht⟩ := idx_onto0 ⟨(i 0).val / 1024 - 0, by omega⟩ ⟨(i 1).val / 768 - 0, by omega⟩
  have q0 : win0_3.index t (0 : Fin 2) = (i 0).val / 1024 - 0 + 0 := congrFun ht 0
  have q1 : win0_3.index t (1 : Fin 2) = (i 1).val / 768 - 0 + 0 := congrFun ht 1
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 768 ≤ (i 1).val ∧ (i 1).val < win0_3.index t (1 : Fin 2) * 768 + 768; omega

/-- THE ARRAY after the last point: the affine layer of the three input arrays as the region finds them. -/
theorem final0 (c : Dev nD) : (dat0 V c).arrAt 3 cfg0.N = G0 (V c main_v4) (V c main_v3) (V c main_arg6) :=
  (dat0 V c).arrAt_eq_of_cover 3 (G0 (V c main_v4) (V c main_v3) (V c main_arg6)) (fun t _ => flushed3_eq V c t) (covered3)

end Array

end Cert.KernelIdeal.Hand0V

end
-- ==== Proof.Spec.lean ====
/-
  The function both programs compute, on the extended reals, index by index.

  With q = queries·Wqᵀ + bq and v = values·Wvᵀ + bv (two affine maps along the last axis), the score of query row n
  against value row s of batch b is the inner product of q[b,n,·] and v[b,s,·]; where the mask is off the score is
  replaced by the word of −10⁹; the weight is the logistic function of that; and the result at (b,n,d) is the sum over
  all 2048 value rows s of weight(b,n,s)·v[b,s,d] — no normalisation.  The kernel walks the value rows in four
  tiles of 512 and adds the tiles' partial sums to an accumulator that starts at zero; `sum_tiles` says that this is the
  whole sum, which holds in any commutative monoid and so asks nothing of the entries.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Arrays of shape [16, 2048, 768], [16, 2048, 2048] (one-bit words), [768, 768] and [768]. -/
abbrev Arr3 : Type := (⟨3, ![16, 2048, 768]⟩ : Shape).Idx → EReal
abbrev Msk3 : Type := (⟨3, ![16, 2048, 2048]⟩ : Shape).Idx → BitVec 1
abbrev Mat2 : Type := (⟨2, ![768, 768]⟩ : Shape).Idx → EReal
abbrev Vec1 : Type := (⟨1, ![768]⟩ : Shape).Idx → EReal

/-- The value a masked-out score is replaced by: the f32 word of −10⁹. -/
def fill : EReal := Ideal.ofBits .f32 0xCE6E6B28#32

/-- The affine map along the last axis: `x[b,n,·]·W[e,·] + β[e]`. -/
def proj (x : Arr3) (W : Mat2) (β : Vec1) (b : Fin 16) (n : Fin 2048) (e : Fin 768) : EReal :=
  (∑ k : Fin 768, x (ix3 b n k) * W (ix2 e k)) + β (ix1 e)

/-- The inner product of query row `n` and value row `s` of batch `b`. -/
def score (q v : Fin 16 → Fin 2048 → Fin 768 → EReal) (b : Fin 16) (n s : Fin 2048) : EReal :=
  ∑ e : Fin 768, q b n e * v b s e

/-- The attention weight: the logistic function of the score, or of the fill value where the mask is off. -/
def weight (mask : Msk3) (q v : Fin 16 → Fin 2048 → Fin 768 → EReal) (b : Fin 16) (n s : Fin 2048) : EReal :=
  Ideal.logistic (if mask (ix3 b n s) = 1#1 then score q v b n s else fill)

/-- The result at (b, n, d): the weights of row n against every value row, times column d of the projected values. -/
def ctx (mask : Msk3) (q v : Fin 16 → Fin 2048 → Fin 768 → EReal) (b : Fin 16) (n : Fin 2048) (d : Fin 768) : EReal :=
  ∑ s : Fin 2048, weight mask q v b n s * v b s d

/-- The whole result array. -/
def G (queries values : Arr3) (mask : Msk3) (Wq : Mat2) (bq : Vec1) (Wv : Mat2) (bv : Vec1) : Arr3 := fun i =>
  ctx mask (proj queries Wq bq) (proj values Wv bv) (i 0) (i 1) (i 2)

theorem G_apply (queries values : Arr3) (mask : Msk3) (Wq : Mat2) (bq : Vec1) (Wv : Mat2) (bv : Vec1)
    (b : Fin 16) (n : Fin 2048) (d : Fin 768) :
    G queries values mask Wq bq Wv bv (ix3 b n d) = ctx mask (proj queries Wq bq) (proj values Wv bv) b n d := rfl

/-- Value row `r` of tile `k`: row `512·k + r`. -/
def tileRow (k : Fin 4) (r : Fin 512) : Fin 2048 := ⟨512 * k.val + r.val, by omega⟩

/-- The partial sum over the `k`-th tile of 512 consecutive rows. -/
def tile (f : Fin 2048 → EReal) (k : Fin 4) : EReal := ∑ r : Fin 512, f (tileRow k r)

/-- The accumulator's order of addition — zero, then the four tiles in turn — gives the sum over all 2048 rows:
    row `s` is row `s % 512` of tile `s / 512`. -/
theorem sum_tiles (f : Fin 2048 → EReal) :
    (((0 + tile f 0) + tile f 1) + tile f 2) + tile f 3 = ∑ s : Fin 2048, f s := by
  have e : ∑ s : Fin 2048, f s = ∑ k : Fin 4, tile f k := by
    rw [← Equiv.sum_comp (finProdFinEquiv : Fin 4 × Fin 512 ≃ Fin 2048) f, Fintype.sum_prod_type]
    refine Finset.sum_congr rfl fun k _ => Finset.sum_congr rfl fun r _ => ?_
    congr 1
    apply Fin.ext
    simp only [tileRow, finProdFinEquiv, Equiv.coe_fn_mk]
    omega
  rw [e, Fin.sum_univ_four, zero_add]

end Cert.Spec

end
-- ==== Proof.KIG1.lean ====
/-
  What the attention region leaves in its output array, as one function of the arrays it is entered with: the queries,
  the transposed query weights (entry (k, e)), the query bias, the already projected values, and the mask widened to
  32-bit words (nonzero = on).  It is the specification's `ctx` at the projected queries and the given values.
-/
import proofs.«114783_j42880953483477_2_alg».proof.KernelIdeal
import proofs.«114783_j42880953483477_2_alg».proof.Proof.Spec

noncomputable section

namespace Cert.KernelIdeal.HandG

open Cert.KernelIdeal Idealize.ShloMosaic Idealize.ShloMosaic.ValueIdx

abbrev G1 (q : S16x2048x768.Idx → EReal) (w : S768x768.Idx → EReal) (β : S768.Idx → EReal) (v : S16x2048x768.Idx → EReal)
    (mk : S16x2048x2048.Idx → BitVec 32) : S16x2048x768.Idx → EReal := fun i =>
  Cert.Spec.ctx (fun j => if mk j ≠ 0#32 then 1#1 else 0#1)
    (fun b n e => (∑ k : Fin 768, q (ix3 b n k) * w (ix2 k e)) + β (ix1 e)) (fun b s e => v (ix3 b s e)) (i 0) (i 1) (i 2)

end Cert.KernelIdeal.HandG

end
-- ==== Proof.KIPayloads.lean ====
/-
  The attention kernel's four stored values read at an index, on the extended reals.

  The zero fill is 0; the query projection at (p, e) is the inner product of row p of the block with column e of the
  weights plus the bias at e; one key/value tile's step at (p, d) adds to the accumulator the sum over the tile's 512
  rows s of logistic(score(p, s), or the fill word where the mask word is zero) times the value row s at d, the score
  being the inner product of query row p and value row s; the last value is the accumulator with a leading unit axis.
  A change of float format is the identity here, a cast that adds or drops a leading unit axis moves no entry, a
  transpose swaps the two coordinates, and a matrix product into the zero accumulator is the sum over the contracted axis.
-/
import proofs.«114783_j42880953483477_2_alg».proof.Proof.Gen.KernelIdeal.Skeleton
import proofs.«114783_j42880953483477_2_alg».proof.Proof.Spec
import proofs.«114783_j42880953483477_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The three contractions are plain matrix products -/

theorem dot_q : dot_S1024x768_S768x768_S1024x768_1_0_0_1_n_n = DotDims.plain 1024 768 768 := rfl
theorem dot_s : dot_S1024x768_S768x512_S1024x512_1_0_0_1_n_n = DotDims.plain 1024 768 512 := rfl
theorem dot_c : dot_S1024x512_S512x768_S1024x768_1_0_0_1_n_n = DotDims.plain 1024 512 768 := rfl

/-- A matrix product at the entry (p, q). -/
theorem mm_apply {M K N : ℕ} (A : Cert.Dense.Mat M K) (W : Cert.Dense.Mat K N) (p : Fin M) (q : Fin N) :
    Cert.Dense.mm A W (ix2 p q) = ∑ k : Fin K, A (ix2 p k) * W (ix2 k q) := rfl

/-- A select on the bit of "the two words differ" is the `if` on their being different. -/
theorem select_ne {α : Type} (x y : BitVec 32) (a b : α) :
    Scalar.select (IntOp.cmpi .ne x y) a b = if x ≠ y then a else b := by
  by_cases h : x = y
  · subst h; simp [Scalar.select, IntOp.cmpi]
  · have hb : (x != y) = true := bne_iff_ne.mpr h
    simp [Scalar.select, IntOp.cmpi, hb, h]

/-! ## The stored values -/

/-- The accumulator's initial value is zero everywhere. -/
theorem pay1_apply (p : Fin 1024) (d : Fin 768) : k1_pay1 (F := Ideal) (ix2 p d) = 0 := by
  unfold k1_pay1
  simp only [shapeCast_self]
  exact Ideal.ofBits_zero_f32

/-- The stored result is the accumulator, entry for entry. -/
theorem pay4_apply (v24 : Vec Ideal S1024x768 .f32) (p : Fin 1024) (d : Fin 768) :
    k1_pay4 (F := Ideal) v24 (ix3 0 p d) = v24 (ix2 p d) := by
  unfold k1_pay4
  exact shapeCast_ab_1ab_apply v24 _ 0 p d

/-- The query projection of the block. -/
theorem pay2_apply (v28 : Vec Ideal S1x1024x768 .f32) (v31 : Vec Ideal S768x768 .bf16) (v34 : Vec Ideal S768 .f32)
    (p : Fin 1024) (e : Fin 768) :
    k1_pay2 (F := Ideal) v28 v31 v34 (ix2 p e) = (∑ k : Fin 768, v28 (ix3 0 p k) * v31 (ix2 k e)) + v34 (ix1 e) := by
  unfold k1_pay2
  simp only [shapeCast_self]
  show matmul (F := Ideal) dot_S1024x768_S768x768_S1024x768_1_0_0_1_n_n none
        (truncf .bf16 (shapeCast S1024x768 v28 shapeCasts_S1x1024x768_S1024x768) bitsLt_bf16_f32) v31
        (constant S1024x768 .f32 0x00000000#32) (ix2 p e)
      + broadcastTo S1024x768 (shapeCast S1x768 v34 shapeCasts_S768_S1x768) broadcasts_S1x768_S1024x768 (ix2 p e) = _
  rw [dot_q, Cert.Dense.matmul_plain_zero, mm_apply, broadcastTo_1b_ab_apply, shapeCast_a_1a_apply]
  refine congrArg (· + v34 (ix1 e)) (Finset.sum_congr rfl fun k _ => ?_)
  exact congrArg (· * v31 (ix2 k e)) (shapeCast_1ab_ab_apply v28 _ p k)

/-- One key/value tile's step: the accumulator plus the tile's weighted sum of value rows. -/
theorem pay3_apply (v3 : Vec Ideal S1024x768 .bf16) (v4 : Vec Ideal S1x512x768 .bf16) (v8 : Vec Ideal S1x1024x512 .i32)
    (v16 : Vec Ideal S1024x768 .f32) (p : Fin 1024) (d : Fin 768) :
    k1_pay3 (F := Ideal) v3 v4 v8 v16 (ix2 p d)
      = v16 (ix2 p d) + ∑ s : Fin 512, Ideal.logistic (if v8 (ix3 0 p s) ≠ 0#32
          then (∑ e : Fin 768, v3 (ix2 p e) * v4 (ix3 0 s e)) else Cert.Spec.fill) * v4 (ix3 0 s d) := by
  unfold k1_pay3
  simp only [shapeCast_self]
  show v16 (ix2 p d) + matmul (F := Ideal) dot_S1024x512_S512x768_S1024x768_1_0_0_1_n_n none _ _
      (constant S1024x768 .f32 0x00000000#32) (ix2 p d) = _
  rw [dot_c, Cert.Dense.matmul_plain_zero, mm_apply]
  refine congrArg (v16 (ix2 p d) + ·) (Finset.sum_congr rfl fun s _ => ?_)
  rw [shapeCast_1ab_ab_apply v4 _ s d]
  refine congrArg (· * v4 (ix3 0 s d)) ?_
  show Ideal.logistic (Scalar.select (IntOp.cmpi .ne (shapeCast S1024x512 v8 shapeCasts_S1x1024x512_S1024x512 (ix2 p s)) 0#32)
      (matmul (F := Ideal) dot_S1024x768_S768x512_S1024x512_1_0_0_1_n_n none v3 _ (constant S1024x512 .f32 0x00000000#32) (ix2 p s))
      (Ideal.ofBits .f32 0xCE6E6B28#32)) = _
  rw [select_ne, shapeCast_1ab_ab_apply v8 _ p s, dot_s, Cert.Dense.matmul_plain_zero, mm_apply]
  refine congrArg Ideal.logistic ?_
  unfold Cert.Spec.fill
  refine congrArg (fun t => if v8 (ix3 0 p s) ≠ 0#32 then t else Ideal.ofBits .f32 0xCE6E6B28#32) (Finset.sum_congr rfl fun e _ => ?_)
  rw [transpose_ix2_apply, shapeCast_1ab_ab_apply]

end Cert.KernelIdeal.Pay

end
-- ==== Proof.KIAccum.lean ====
/-
  The kernel's four tile steps add up to the specification's sum over all 2048 value rows.

  One step adds to the accumulator the partial sum, over the tile's 512 rows, of a term that depends only on the
  query rows, the value rows and the mask words; starting from zero and taking the four tiles in turn gives the sum of
  that term over all rows (`Cert.Spec.sum_tiles`). Where the mask word is the one-bit mask widened with zeros, the
  query rows are the projected queries and the value rows the projected values, that sum is `Cert.Spec.ctx`.
-/
import proofs.«114783_j42880953483477_2_alg».proof.Proof.KIPayloads

noncomputable section

namespace Cert.KernelIdeal.Pay

open Cert.KernelIdeal Cert.KernelIdeal.Gen Idealize.ShloMosaic Idealize.ShloMosaic.ValueIdx Cert.Spec

/-- The summand of one value row: the weight of query row p against value row s, times the value row at d. -/
def term (Q : Fin 1024 → Fin 768 → EReal) (V : Fin 2048 → Fin 768 → EReal) (M : Fin 1024 → Fin 2048 → BitVec 32)
    (p : Fin 1024) (d : Fin 768) (s : Fin 2048) : EReal :=
  Ideal.logistic (if M p s ≠ 0#32 then (∑ e : Fin 768, Q p e * V s e) else fill) * V s d

/-- One step on tile t, when the loaded blocks are the query rows, tile t's value rows and tile t's mask words. -/
theorem pay3_tile (v3 : Vec Ideal S1024x768 .bf16) (v4 : Vec Ideal S1x512x768 .bf16) (v8 : Vec Ideal S1x1024x512 .i32)
    (v16 : Vec Ideal S1024x768 .f32) (Q : Fin 1024 → Fin 768 → EReal) (V : Fin 2048 → Fin 768 → EReal)
    (M : Fin 1024 → Fin 2048 → BitVec 32) (t : Fin 4)
    (hq : ∀ p e, v3 (ix2 p e) = Q p e) (hv : ∀ s e, v4 (ix3 0 s e) = V (tileRow t s) e)
    (hm : ∀ p s, v8 (ix3 0 p s) = M p (tileRow t s)) (p : Fin 1024) (d : Fin 768) :
    k1_pay3 (F := Ideal) v3 v4 v8 v16 (ix2 p d) = v16 (ix2 p d) + tile (term Q V M p d) t := by
  rw [pay3_apply]
  unfold tile term
  refine congrArg (v16 (ix2 p d) + ·) (Finset.sum_congr rfl fun s _ => ?_)
  simp only [hq, hv, hm]

/-- The four steps in turn, from the zero fill: the sum over all 2048 value rows. -/
theorem accum4 (v3 : Vec Ideal S1024x768 .bf16) (v4 : Fin 4 → Vec Ideal S1x512x768 .bf16)
    (v8 : Fin 4 → Vec Ideal S1x1024x512 .i32) (Q : Fin 1024 → Fin 768 → EReal) (V : Fin 2048 → Fin 768 → EReal)
    (M : Fin 1024 → Fin 2048 → BitVec 32)
    (hq : ∀ p e, v3 (ix2 p e) = Q p e) (hv : ∀ t s e, v4 t (ix3 0 s e) = V (tileRow t s) e)
    (hm : ∀ t p s, v8 t (ix3 0 p s) = M p (tileRow t s)) (p : Fin 1024) (d : Fin 768) :
    k1_pay3 (F := Ideal) v3 (v4 3) (v8 3) (k1_pay3 (F := Ideal) v3 (v4 2) (v8 2) (k1_pay3 (F := Ideal) v3 (v4 1) (v8 1)
        (k1_pay3 (F := Ideal) v3 (v4 0) (v8 0) (k1_pay1 (F := Ideal))))) (ix2 p d)
      = ∑ s : Fin 2048, term Q V M p d s := by
  rw [pay3_tile v3 (v4 3) (v8 3) _ Q V M 3 hq (hv 3) (hm 3), pay3_tile v3 (v4 2) (v8 2) _ Q V M 2 hq (hv 2) (hm 2),
    pay3_tile v3 (v4 1) (v8 1) _ Q V M 1 hq (hv 1) (hm 1), pay3_tile v3 (v4 0) (v8 0) _ Q V M 0 hq (hv 0) (hm 0),
    pay1_apply]
  exact sum_tiles _

/-- The same with the accumulator's successive contents named: each the step applied to the one before. -/
theorem accum4_of (a0 a1 a2 a3 a4 : Fin 1024 → Fin 768 → EReal) (T : Fin 4 → Fin 1024 → Fin 768 → EReal)
    (f : Fin 1024 → Fin 768 → Fin 2048 → EReal) (hT : ∀ t p d, T t p d = tile (f p d) t)
    (h0 : ∀ p d, a0 p d = 0) (h1 : ∀ p d, a1 p d = a0 p d + T 0 p d) (h2 : ∀ p d, a2 p d = a1 p d + T 1 p d)
    (h3 : ∀ p d, a3 p d = a2 p d + T 2 p d) (h4 : ∀ p d, a4 p d = a3 p d + T 3 p d) (p : Fin 1024) (d : Fin 768) :
    a4 p d = ∑ s : Fin 2048, f p d s := by
  rw [h4, h3, h2, h1, h0, hT, hT, hT, hT]
  exact sum_tiles _

/-- A one-bit word widened with zeros to 32 bits is not the zero word exactly when the bit is 1. -/
theorem ite_setWidth {α : Type} (c : BitVec 1) (a b : α) :
    (if c.setWidth 32 ≠ 0#32 then a else b) = if c = 1#1 then a else b := by
  rcases BitVec.eq_zero_or_eq_one c with h | h <;> subst h <;> simp

/-- With the projected queries' rows ρ p, the projected values of batch b and the widened mask, the sum of the term over
    all value rows is the specification's result at (b, ρ p, d). -/
theorem sum_term_eq_ctx (mask : Msk3) (q v : Fin 16 → Fin 2048 → Fin 768 → EReal) (b : Fin 16)
    (ρ : Fin 1024 → Fin 2048) (p : Fin 1024) (d : Fin 768) :
    ∑ s : Fin 2048, term (fun p e => q b (ρ p) e) (fun s e => v b s e)
        (fun p s => (mask (ix3 b (ρ p) s)).setWidth 32) p d s
      = ctx mask q v b (ρ p) d := by
  unfold ctx weight score term
  refine Finset.sum_congr rfl fun s _ => ?_
  rw [ite_setWidth]

end Cert.KernelIdeal.Pay

end
-- ==== Proof.KIRegion1Value.lean ====
/-
  The value of the attention region on the extended reals.

  First, for any float model: what each of the body's three cases leaves in the two scratch buffers and in the output
  block is the stored value of its last store into that buffer (the stores cover the buffer), so at a last tile the
  output block is the fourth accumulation step applied to the third, to the second, to the first, to the zero fill,
  all with the query block projected at the first tile.  Then, on the extended reals, the four steps add up to the sum
  over all 2048 value rows, which is the specification's result at the block's rows; the output blocks tile the
  array, so the array ends holding that function of the arrays the region is entered with.
-/
import proofs.«114783_j42880953483477_2_alg».proof.Proof.KIRegion1
import proofs.«114783_j42880953483477_2_alg».proof.Proof.KIG1
import proofs.«114783_j42880953483477_2_alg».proof.Proof.KIAccum
import Idealize.ShloMosaic.Lib.Pipeline.Value
import Idealize.ShloMosaic.Lib.Tactic

set_option maxRecDepth 16384

noncomputable section

open scoped BigOperators

namespace Cert.KernelIdeal.Hand1V

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-! ## What each case leaves, as stored values -/

section Pieces

variable {F : FTy → Type} [FloatOps F]
variable (V : (c : Dev nD) → (b : Ref sig .tc) → Buf (Elt F) ((c : Thread nD τ).loc b))

set_option maxHeartbeats 400000 in
theorem qbfA_eq (c : Dev nD) (t : Fin cfg1.N) (h0 : t.val % 4 = 0) (h1 : ¬t.val % 4 = 3) :
    qbfA V c t h0 h1 = Gen.k1_pay2 (iblk1 V c 0 t) (iblk1 V c 1 t) (iblk1 V c 2 t) := by
  unfold qbfA
  rw [View.read_writes_eq_canon _ _ _ (scoverA_1 V c t h0 h1)]
  unfold runA kernelRun1_A
  dsimp only
  sl_unfold_words
  rw [View.canon_unit_zero hz2]
  simp only [View.readAt_eq_ld, (hs1_0 t).read_unread, (hs1_1 t).read_unread, (hs1_2 t).read_unread,
    View.ld_unit_zero (S := S1x1024x768) hz3, View.ld_unit_zero (S := S768x768) hz2, View.ld_unit_zero (S := S768) hz1]

set_option maxHeartbeats 400000 in
theorem accA_eq (c : Dev nD) (t : Fin cfg1.N) (h0 : t.val % 4 = 0) (h1 : ¬t.val % 4 = 3) :
    accA V c t h0 h1 = Gen.k1_pay3 (Gen.k1_pay2 (iblk1 V c 0 t) (iblk1 V c 1 t) (iblk1 V c 2 t)) (iblk1 V c 3 t) (iblk1 V c 4 t) Gen.k1_pay1 := by
  unfold accA
  rw [View.read_writes_eq_canon _ _ _ (scoverA_0 V c t h0 h1)]
  unfold runA kernelRun1_A
  dsimp only
  sl_unfold_words
  rw [View.canon_cons_unit_zero (S := S1024x768) hz2, View.readCov_unit_zero (S := S1024x768) _ hz2, View.readCov_unit_zero (S := S1024x768) _ hz2]
  simp only [View.readAt_eq_ld, (hs1_0 t).read_unread, (hs1_1 t).read_unread, (hs1_2 t).read_unread, (hs1_3 t).read_unread, (hs1_4 t).read_unread,
    View.ld_unit_zero (S := S1x1024x768) hz3, View.ld_unit_zero (S := S768x768) hz2, View.ld_unit_zero (S := S768) hz1,
    View.ld_unit_zero (S := S1x512x768) hz3, View.ld_unit_zero (S := S1x1024x512) hz3]

set_option maxHeartbeats 400000 in
theorem accB_eq (c : Dev nD) (t : Fin cfg1.N) (h0 : ¬t.val % 4 = 0) (h1 : ¬t.val % 4 = 3) (xs0 : Vec F S1024x768 .f32) (xs1 : Vec F S1024x768 .bf16) :
    accB V c t h0 h1 xs0 xs1 = Gen.k1_pay3 xs1 (iblk1 V c 3 t) (iblk1 V c 4 t) xs0 := by
  unfold accB
  rw [View.read_writes_eq_canon _ _ _ (scoverB_0 V c t h0 h1 xs0 xs1)]
  unfold runB kernelRun1_B
  dsimp only
  sl_unfold_words
  rw [View.canon_unit_zero hz2]
  simp only [View.readAt_eq_ld, Memref.IsWhole.read_unread,
    View.ld_unit_zero (S := S1024x768) hz2, View.ld_unit_zero (S := S1x512x768) hz3, View.ld_unit_zero (S := S1x1024x512) hz3]
  have e1 : View.read (Elt F) (View.whole cc1_scratch1) ((Memref.isWhole_whole _ : scM1_1.IsWhole).unread xs1) = xs1 := Memref.IsWhole.read_unread _ xs1
  have e0 : View.read (Elt F) (View.whole cc1_scratch0) ((Memref.isWhole_whole _ : scM1_0.IsWhole).unread xs0) = xs0 := Memref.IsWhole.read_unread _ xs0
  rw [e1, e0]

set_option maxHeartbeats 400000 in
theorem accC_eq (c : Dev nD) (t : Fin cfg1.N) (h0 : ¬t.val % 4 = 0) (h1 : t.val % 4 = 3) (xs0 : Vec F S1024x768 .f32) (xs1 : Vec F S1024x768 .bf16) :
    accC V c t h0 h1 xs0 xs1 = Gen.k1_pay3 xs1 (iblk1 V c 3 t) (iblk1 V c 4 t) xs0 := by
  unfold accC
  rw [View.read_writes_eq_canon _ _ _ (scoverC_0 V c t h0 h1 xs0 xs1)]
  unfold runC kernelRun1_C
  dsimp only
  sl_unfold_words
  rw [View.canon_unit_zero hz2]
  simp only [View.readAt_eq_ld, Memref.IsWhole.read_unread,
    View.ld_unit_zero (S := S1024x768) hz2, View.ld_unit_zero (S := S1x512x768) hz3, View.ld_unit_zero (S := S1x1024x512) hz3]
  have e1 : View.read (Elt F) (View.whole cc1_scratch1) ((Memref.isWhole_whole _ : scM1_1.IsWhole).unread xs1) = xs1 := Memref.IsWhole.read_unread _ xs1
  have e0 : View.read (Elt F) (View.whole cc1_scratch0) ((Memref.isWhole_whole _ : scM1_0.IsWhole).unread xs0) = xs0 := Memref.IsWhole.read_unread _ xs0
  rw [e1, e0]

set_option maxHeartbeats 400000 in
theorem outC_eq (c : Dev nD) (t : Fin cfg1.N) (h0 : ¬t.val % 4 = 0) (h1 : t.val % 4 = 3) (xs0 : Vec F S1024x768 .f32) (xs1 : Vec F S1024x768 .bf16) :
    outC V c t h0 h1 xs0 xs1 = Gen.k1_pay4 (Gen.k1_pay3 xs1 (iblk1 V c 3 t) (iblk1 V c 4 t) xs0) := by
  unfold outC
  rw [View.read_writes_eq_canon _ _ _ (coverC_5 V c t h0 h1 xs0 xs1)]
  unfold runC kernelRun1_C
  dsimp only
  sl_unfold_words
  rw [View.canon_unit_zero hz3, View.readCov_unit_zero (S := S1024x768) _ hz2]
  simp only [View.readAt_eq_ld, Memref.IsWhole.read_unread,
    View.ld_unit_zero (S := S1024x768) hz2, View.ld_unit_zero (S := S1x512x768) hz3, View.ld_unit_zero (S := S1x1024x512) hz3]
  have e1 : View.read (Elt F) (View.whole cc1_scratch1) ((Memref.isWhole_whole _ : scM1_1.IsWhole).unread xs1) = xs1 := Memref.IsWhole.read_unread _ xs1
  have e0 : View.read (Elt F) (View.whole cc1_scratch0) ((Memref.isWhole_whole _ : scM1_0.IsWhole).unread xs0) = xs0 := Memref.IsWhole.read_unread _ xs0
  rw [e1, e0]

/-! ## The four tiles of one (batch, query tile), unrolled -/

/-- The contents after a position do not depend on how the position is written. -/
theorem outsAt1_congr (c : Dev nD) (n n' : ℕ) (h : n = n') (hn : n < cfg1.N) (hn' : n' < cfg1.N) :
    outsAt1 V c n hn = outsAt1 V c n' hn' := by
  subst h; rfl

/-- The first tile: the accumulator is the first step from the zero fill, the second scratch the projected query block. -/
theorem afterA (c : Dev nD) (t : Fin cfg1.N) (h0 : t.val % 4 = 0) :
    (outsAt1 V c t.val t.isLt).2.1 = Gen.k1_pay3 (Gen.k1_pay2 (iblk1 V c 0 t) (iblk1 V c 1 t) (iblk1 V c 2 t)) (iblk1 V c 3 t) (iblk1 V c 4 t) Gen.k1_pay1
    ∧ (outsAt1 V c t.val t.isLt).2.2 = Gen.k1_pay2 (iblk1 V c 0 t) (iblk1 V c 1 t) (iblk1 V c 2 t) := by
  have h1 : ¬t.val % 4 = 3 := by omega
  rw [outsAt1_A V c t h0 h1]
  dsimp only
  exact ⟨accA_eq V c t h0 h1, qbfA_eq V c t h0 h1⟩

/-- A middle tile: one more step on the accumulator, the second scratch unchanged. -/
theorem afterB (c : Dev nD) (t : Fin cfg1.N) (h0 : ¬t.val % 4 = 0) (h1 : ¬t.val % 4 = 3) :
    (outsAt1 V c t.val t.isLt).2.1 = Gen.k1_pay3 (outsAt1 V c (t.val - 1) (Nat.lt_of_le_of_lt (Nat.sub_le _ _) t.isLt)).2.2 (iblk1 V c 3 t) (iblk1 V c 4 t)
        (outsAt1 V c (t.val - 1) (Nat.lt_of_le_of_lt (Nat.sub_le _ _) t.isLt)).2.1
    ∧ (outsAt1 V c t.val t.isLt).2.2 = (outsAt1 V c (t.val - 1) (Nat.lt_of_le_of_lt (Nat.sub_le _ _) t.isLt)).2.2 := by
  rw [outsAt1_B V c t h0 h1]
  dsimp only
  exact ⟨accB_eq V c t h0 h1 _ _, rfl⟩

/-- The last tile: the output block is the stored copy of one more step on the accumulator. -/
theorem afterC (c : Dev nD) (t : Fin cfg1.N) (h0 : ¬t.val % 4 = 0) (h1 : t.val % 4 = 3) :
    (outsAt1 V c t.val t.isLt).1 = Gen.k1_pay4 (Gen.k1_pay3 (outsAt1 V c (t.val - 1) (Nat.lt_of_le_of_lt (Nat.sub_le _ _) t.isLt)).2.2 (iblk1 V c 3 t) (iblk1 V c 4 t)
        (outsAt1 V c (t.val - 1) (Nat.lt_of_le_of_lt (Nat.sub_le _ _) t.isLt)).2.1) := by
  rw [outsAt1_C V c t h0 h1]
  dsimp only
  exact outC_eq V c t h0 h1 _ _

/-- The output block at the last tile of a group of four consecutive points that starts at a multiple of 4: the four
    steps in turn from the zero fill, each on its own point's value and mask blocks, all on the query block projected at
    the first point. -/
theorem group_out (c : Dev nD) (t0 t1 t2 t3 : Fin cfg1.N) (h : t0.val % 4 = 0) (e1 : t1.val = t0.val + 1)
    (e2 : t2.val = t0.val + 2) (e3 : t3.val = t0.val + 3) :
    (outsAt1 V c t3.val t3.isLt).1
      = Gen.k1_pay4 (Gen.k1_pay3 (Gen.k1_pay2 (iblk1 V c 0 t0) (iblk1 V c 1 t0) (iblk1 V c 2 t0)) (iblk1 V c 3 t3) (iblk1 V c 4 t3)
          (Gen.k1_pay3 (Gen.k1_pay2 (iblk1 V c 0 t0) (iblk1 V c 1 t0) (iblk1 V c 2 t0)) (iblk1 V c 3 t2) (iblk1 V c 4 t2)
            (Gen.k1_pay3 (Gen.k1_pay2 (iblk1 V c 0 t0) (iblk1 V c 1 t0) (iblk1 V c 2 t0)) (iblk1 V c 3 t1) (iblk1 V c 4 t1)
              (Gen.k1_pay3 (Gen.k1_pay2 (iblk1 V c 0 t0) (iblk1 V c 1 t0) (iblk1 V c 2 t0)) (iblk1 V c 3 t0) (iblk1 V c 4 t0) Gen.k1_pay1)))) := by
  obtain ⟨a0, q0⟩ := afterA V c t0 h
  obtain ⟨a1, q1⟩ := afterB V c t1 (by omega) (by omega)
  obtain ⟨a2, q2⟩ := afterB V c t2 (by omega) (by omega)
  have a3 := afterC V c t3 (by omega) (by omega)
  rw [a3, outsAt1_congr V c (t3.val - 1) t2.val (by omega) _ t2.isLt, a2, q2,
    outsAt1_congr V c (t2.val - 1) t1.val (by omega) _ t1.isLt, a1, q1,
    outsAt1_congr V c (t1.val - 1) t0.val (by omega) _ t0.isLt, a0, q0]

end Pieces

/-! ## On the extended reals -/

section Ideal

open Cert.KernelIdeal.Pay Cert.KernelIdeal.HandG Cert.Spec

/-- The summand of a value row depends on the mask words only through their being nonzero. -/
theorem term_congr_mask (Q : Fin 1024 → Fin 768 → EReal) (Vf : Fin 2048 → Fin 768 → EReal) (M M' : Fin 1024 → Fin 2048 → BitVec 32)
    (h : ∀ p s, M p s ≠ 0#32 ↔ M' p s ≠ 0#32) (p : Fin 1024) (d : Fin 768) (s : Fin 2048) :
    term Q Vf M p d s = term Q Vf M' p d s := by
  unfold term
  by_cases hm : M p s ≠ 0#32
  · rw [if_pos hm, if_pos ((h p s).mp hm)]
  · rw [if_neg hm, if_neg (fun h' => hm ((h p s).mpr h'))]

/-- The one-bit mask "the word is nonzero", widened back with zeros, is nonzero exactly when the word is. -/
theorem widen_ne_zero (x : BitVec 32) : ((if x ≠ 0#32 then 1#1 else 0#1 : BitVec 1).setWidth 32 ≠ 0#32) ↔ x ≠ 0#32 := by
  by_cases hx : x = 0#32
  · subst hx; simp
  · simp [hx]

/-- The four steps on the blocks of one (batch, query tile): when the query block is rows ρ of batch b of the queries,
    the weights and the bias are whole, and the k-th value and mask blocks are tile k of batch b (the mask's at rows ρ),
    the accumulator after the fourth step is the specification's result at (b, ρ p, d). -/
theorem ctx_of_tiles (q : S16x2048x768.Idx → EReal) (w : S768x768.Idx → EReal) (β : S768.Idx → EReal)
    (v : S16x2048x768.Idx → EReal) (mk : S16x2048x2048.Idx → BitVec 32) (b : Fin 16) (ρ : Fin 1024 → Fin 2048)
    (x0 : Vec Ideal S1x1024x768 .f32) (x1 : Vec Ideal S768x768 .bf16) (x2 : Vec Ideal S768 .f32)
    (y0 y1 y2 y3 : Vec Ideal S1x512x768 .bf16) (z0 z1 z2 z3 : Vec Ideal S1x1024x512 .i32)
    (h0 : ∀ (p : Fin 1024) (k : Fin 768), x0 (ix3 (0 : Fin 1) p k) = q (ix3 b (ρ p) k))
    (h1 : ∀ k e : Fin 768, x1 (ix2 k e) = w (ix2 k e)) (h2 : ∀ e : Fin 768, x2 (ix1 e) = β (ix1 e))
    (hy0 : ∀ (s : Fin 512) (e : Fin 768), y0 (ix3 (0 : Fin 1) s e) = v (ix3 b (tileRow 0 s) e))
    (hy1 : ∀ (s : Fin 512) (e : Fin 768), y1 (ix3 (0 : Fin 1) s e) = v (ix3 b (tileRow 1 s) e))
    (hy2 : ∀ (s : Fin 512) (e : Fin 768), y2 (ix3 (0 : Fin 1) s e) = v (ix3 b (tileRow 2 s) e))
    (hy3 : ∀ (s : Fin 512) (e : Fin 768), y3 (ix3 (0 : Fin 1) s e) = v (ix3 b (tileRow 3 s) e))
    (hz0 : ∀ (p : Fin 1024) (s : Fin 512), z0 (ix3 (0 : Fin 1) p s) = mk (ix3 b (ρ p) (tileRow 0 s)))
    (hz1 : ∀ (p : Fin 1024) (s : Fin 512), z1 (ix3 (0 : Fin 1) p s) = mk (ix3 b (ρ p) (tileRow 1 s)))
    (hz2 : ∀ (p : Fin 1024) (s : Fin 512), z2 (ix3 (0 : Fin 1) p s) = mk (ix3 b (ρ p) (tileRow 2 s)))
    (hz3 : ∀ (p : Fin 1024) (s : Fin 512), z3 (ix3 (0 : Fin 1) p s) = mk (ix3 b (ρ p) (tileRow 3 s)))
    (p : Fin 1024) (d : Fin 768) :
    Gen.k1_pay3 (F := Ideal) (Gen.k1_pay2 (F := Ideal) x0 x1 x2) y3 z3
        (Gen.k1_pay3 (F := Ideal) (Gen.k1_pay2 (F := Ideal) x0 x1 x2) y2 z2
          (Gen.k1_pay3 (F := Ideal) (Gen.k1_pay2 (F := Ideal) x0 x1 x2) y1 z1
            (Gen.k1_pay3 (F := Ideal) (Gen.k1_pay2 (F := Ideal) x0 x1 x2) y0 z0 (Gen.k1_pay1 (F := Ideal))))) (ix2 p d)
      = G1 q w β v mk (ix3 b (ρ p) d) := by
  have hq : ∀ (p : Fin 1024) (e : Fin 768), Gen.k1_pay2 (F := Ideal) x0 x1 x2 (ix2 p e)
      = (fun (p : Fin 1024) (e : Fin 768) => (∑ k : Fin 768, q (ix3 b (ρ p) k) * w (ix2 k e)) + β (ix1 e)) p e := fun p e => by
    rw [Pay.pay2_apply, h2]
    exact congrArg (· + β (ix1 e)) (Finset.sum_congr rfl fun k _ => by rw [h0, h1])
  rw [pay3_tile _ y3 z3 _ _ (fun s e => v (ix3 b s e)) (fun p s => mk (ix3 b (ρ p) s)) 3 hq hy3 hz3,
    pay3_tile _ y2 z2 _ _ (fun s e => v (ix3 b s e)) (fun p s => mk (ix3 b (ρ p) s)) 2 hq hy2 hz2,
    pay3_tile _ y1 z1 _ _ (fun s e => v (ix3 b s e)) (fun p s => mk (ix3 b (ρ p) s)) 1 hq hy1 hz1,
    pay3_tile _ y0 z0 _ _ (fun s e => v (ix3 b s e)) (fun p s => mk (ix3 b (ρ p) s)) 0 hq hy0 hz0,
    Pay.pay1_apply]
  refine (sum_tiles _).trans ?_
  show _ = ctx (fun j => if mk j ≠ 0#32 then 1#1 else 0#1)
    (fun b n e => (∑ k : Fin 768, q (ix3 b n k) * w (ix2 k e)) + β (ix1 e)) (fun b s e => v (ix3 b s e)) b (ρ p) d
  rw [← sum_term_eq_ctx]
  exact Finset.sum_congr rfl fun s _ => term_congr_mask _ _ _ _ (fun p s => (widen_ne_zero _).symm) p d s

variable (V : (c : Dev nD) → (b : Ref sig .tc) → Buf (Elt Ideal) ((c : Thread nD τ).loc b))

/-- The printed index maps, decided over the grid: with point t = 8·batch + 4·(query tile) + (key/value tile), the queries'
    and the output's blocks are at (batch, query tile, 0), the values' at (batch, key/value tile, 0), the mask's at
    (batch, query tile, key/value tile), the weights' and the bias's at 0. -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 8 ∧ win1_3.index t (1 : Fin 3) = t.val % 4 ∧ win1_3.index t (2 : Fin 3) = 0
    ∧ win1_4.index t (0 : Fin 3) = t.val / 8 ∧ win1_4.index t (1 : Fin 3) = t.val / 4 % 2 ∧ win1_4.index t (2 : Fin 3) = t.val % 4
    ∧ win1_5.index t (0 : Fin 3) = t.val / 8 ∧ win1_5.index t (1 : Fin 3) = t.val / 4 % 2 ∧ win1_5.index t (2 : Fin 3) = 0 :=
  (by decide +kernel : ∀ t : Fin grid1.N, _)

/-! ### The input blocks at a point, read off the arrays -/

theorem blk0 (c : Dev nD) (t : Fin cfg1.N) (b : Fin 16) (r : Fin 2048) (p : Fin 1024) (k : Fin 768)
    (hb : b.val = t.val / 8) (hr : r.val = 1024 * (t.val / 4 % 2) + p.val) :
    iblk1 V c 0 t (ix3 (0 : Fin 1) p k) = (V c main_arg0 : S16x2048x768.Idx → EReal) (ix3 b r k) := by
  obtain ⟨e0, e1, e2, -⟩ := idx_facts1 t
  show (V c main_arg0 : S16x2048x768.Idx → EReal) (((cfg1.win 0).blk t).view.emb (ix3 (0 : Fin 1) p k)) = _
  refine congrArg _ ?_
  funext a; apply Fin.ext
  match a with
  | ⟨0, _⟩ => show win1_0.index t (0 : Fin 3) * 1 + 1 * 0 = b.val; omega
  | ⟨1, _⟩ => show win1_0.index t (1 : Fin 3) * 1024 + 1 * p.val = r.val; omega
  | ⟨2, _⟩ => show win1_0.index t (2 : Fin 3) * 768 + 1 * k.val = k.val; omega

theorem blk1 (c : Dev nD) (t : Fin cfg1.N) (k e : Fin 768) :
    iblk1 V c 1 t (ix2 k e) = (V c main_v1 : S768x768.Idx → EReal) (ix2 k e) := by
  obtain ⟨-, -, -, e0, e1, -⟩ := idx_facts1 t
  show (V c main_v1 : S768x768.Idx → EReal) (((cfg1.win 1).blk t).view.emb (ix2 k e)) = _
  refine congrArg _ ?_
  funext a; apply Fin.ext
  match a with
  | ⟨0, _⟩ => show win1_1.index t (0 : Fin 2) * 768 + 1 * k.val = k.val; omega
  | ⟨1, _⟩ => show win1_1.index t (1 : Fin 2) * 768 + 1 * e.val = e.val; omega

theorem blk2 (c : Dev nD) (t : Fin cfg1.N) (e : Fin 768) :
    iblk1 V c 2 t (ix1 e) = (V c main_arg4 : S768.Idx → EReal) (ix1 e) := by
  obtain ⟨-, -, -, -, -, e0, -⟩ := idx_facts1 t
  show (V c main_arg4 : S768.Idx → EReal) (((cfg1.win 2).blk t).view.emb (ix1 e)) = _
  refine congrArg _ ?_
  funext a; apply Fin.ext
  match a with
  | ⟨0, _⟩ => show win1_2.index t (0 : Fin 1) * 768 + 1 * e.val = e.val; omega

theorem blk3 (c : Dev nD) (t : Fin cfg1.N) (b : Fin 16) (r : Fin 2048) (s : Fin 512) (e : Fin 768)
    (hb : b.val = t.val / 8) (hr : r.val = 512 * (t.val % 4) + s.val) :
    iblk1 V c 3 t (ix3 (0 : Fin 1) s e) = (V c main_v6 : S16x2048x768.Idx → EReal) (ix3 b r e) := by
  obtain ⟨-, -, -, -, -, -, e0, e1, e2, -⟩ := idx_facts1 t
  show (V c main_v6 : S16x2048x768.Idx → EReal) (((cfg1.win 3).blk t).view.emb (ix3 (0 : Fin 1) s e)) = _
  refine congrArg _ ?_
  funext a; apply Fin.ext
  match a with
  | ⟨0, _⟩ => show win1_3.index t (0 : Fin 3) * 1 + 1 * 0 = b.val; omega
  | ⟨1, _⟩ => show win1_3.index t (1 : Fin 3) * 512 + 1 * s.val = r.val; omega
  | ⟨2, _⟩ => show win1_3.index t (2 : Fin 3) * 768 + 1 * e.val = e.val; omega

theorem blk4 (c : Dev nD) (t : Fin cfg1.N) (b : Fin 16) (r r' : Fin 2048) (p : Fin 1024) (s : Fin 512)
    (hb : b.val = t.val / 8) (hr : r.val = 1024 * (t.val / 4 % 2) + p.val) (hr' : r'.val = 512 * (t.val % 4) + s.val) :
    iblk1 V c 4 t (ix3 (0 : Fin 1) p s) = (V c main_v7 : S16x2048x2048.Idx → BitVec 32) (ix3 b r r') := by
  obtain ⟨-, -, -, -, -, -, -, -, -, e0, e1, e2, -⟩ := idx_facts1 t
  show (V c main_v7 : S16x2048x2048.Idx → BitVec 32) (((cfg1.win 4).blk t).view.emb (ix3 (0 : Fin 1) p s)) = _
  refine congrArg _ ?_
  funext a; apply Fin.ext
  match a with
  | ⟨0, _⟩ => show win1_4.index t (0 : Fin 3) * 1 + 1 * 0 = b.val; omega
  | ⟨1, _⟩ => show win1_4.index t (1 : Fin 3) * 1024 + 1 * p.val = r.val; omega
  | ⟨2, _⟩ => show win1_4.index t (2 : Fin 3) * 512 + 1 * s.val = r'.val; omega

/-! ### From blocks to the array -/

/-- WHAT A LAST-TILE POINT WRITES BACK is its block of the specification's result on the arrays the region is entered with. -/
theorem flushed5_eq (c : Dev nD) (t : Fin cfg1.N) (hf : (cfg1.win 5).flush t = true) :
    (dat1 V c).flushed 5 t = ((cfg1.win 5).blk t).view.read (Elt Ideal)
      (G1 (V c main_arg0) (V c main_v1) (V c main_arg4) (V c main_v6) (V c main_v7)) := by
  have hN : cfg1.N = 128 := N_1
  have h3 : t.val % 4 = 3 := (flush1_5 t).mp hf
  have htlt : t.val < 128 := lt_of_lt_of_eq t.isLt hN
  obtain ⟨t0, ht0⟩ : ∃ t0 : Fin cfg1.N, t0.val = t.val - 3 := ⟨⟨t.val - 3, by omega⟩, rfl⟩
  obtain ⟨t1, ht1⟩ : ∃ t1 : Fin cfg1.N, t1.val = t.val - 2 := ⟨⟨t.val - 2, by omega⟩, rfl⟩
  obtain ⟨t2, ht2⟩ : ∃ t2 : Fin cfg1.N, t2.val = t.val - 1 := ⟨⟨t.val - 1, by omega⟩, rfl⟩
  obtain ⟨b, hb⟩ : ∃ b : Fin 16, b.val = t.val / 8 := ⟨⟨t.val / 8, by omega⟩, rfl⟩
  obtain ⟨ρ, hρ⟩ : ∃ ρ : Fin 1024 → Fin 2048, ∀ p : Fin 1024, (ρ p).val = 1024 * (t.val / 4 % 2) + p.val :=
    ⟨fun p => ⟨1024 * (t.val / 4 % 2) + p.val, by have := p.isLt; omega⟩, fun _ => rfl⟩
  show (cfg1.win 5).cut (grid1.coords t) ((dat1 V c).after 5 t) = _
  rw [after1_5, group_out V c t0 t1 t2 t (by omega) (by omega) (by omega) (by omega)]
  obtain ⟨-, -, -, -, -, -, -, -, -, -, -, -, f0, f1, f2⟩ := idx_facts1 t
  funext j
  obtain ⟨u, p, d, rfl⟩ : ∃ (u : Fin 1) (p : Fin 1024) (d : Fin 768), j = ix3 u p d := ⟨j 0, j 1, j 2, eq_ix3 j⟩
  obtain rfl : u = 0 := Subsingleton.elim _ _
  have hemb : ((cfg1.win 5).blk t).view.emb (ix3 (0 : Fin 1) p d) = ix3 b (ρ p) d := by
    have := hρ p
    funext a; apply Fin.ext
    match a with
    | ⟨0, _⟩ => show win1_5.index t (0 : Fin 3) * 1 + 1 * 0 = b.val; omega
    | ⟨1, _⟩ => show win1_5.index t (1 : Fin 3) * 1024 + 1 * p.val = (ρ p).val; omega
    | ⟨2, _⟩ => show win1_5.index t (2 : Fin 3) * 768 + 1 * d.val = d.val; omega
  show Gen.k1_pay4 (F := Ideal) _ (ix3 (0 : Fin 1) p d)
    = G1 (V c main_arg0) (V c main_v1) (V c main_arg4) (V c main_v6) (V c main_v7) (((cfg1.win 5).blk t).view.emb (ix3 (0 : Fin 1) p d))
  rw [hemb]
  refine (Pay.pay4_apply _ p d).trans ?_
  exact ctx_of_tiles _ _ _ _ _ b ρ _ _ _ _ _ _ _ _ _ _ _
    (fun p k => blk0 V c t0 b (ρ p) p k (by omega) (by have := hρ p; omega))
    (fun k e => blk1 V c t0 k e) (fun e => blk2 V c t0 e)
    (fun s e => blk3 V c t0 b (tileRow 0 s) s e (by omega) (by show 512 * 0 + s.val = _; omega))
    (fun s e => blk3 V c t1 b (tileRow 1 s) s e (by omega) (by show 512 * 1 + s.val = _; omega))
    (fun s e => blk3 V c t2 b (tileRow 2 s) s e (by omega) (by show 512 * 2 + s.val = _; omega))
    (fun s e => blk3 V c t b (tileRow 3 s) s e (by omega) (by show 512 * 3 + s.val = _; omega))
    (fun p s => blk4 V c t0 b (ρ p) (tileRow 0 s) p s (by omega) (by have := hρ p; omega) (by show 512 * 0 + s.val = _; omega))
    (fun p s => blk4 V c t1 b (ρ p) (tileRow 1 s) p s (by omega) (by have := hρ p; omega) (by show 512 * 1 + s.val = _; omega))
    (fun p s => blk4 V c t2 b (ρ p) (tileRow 2 s) p s (by omega) (by have := hρ p; omega) (by show 512 * 2 + s.val = _; omega))
    (fun p s => blk4 V c t b (ρ p) (tileRow 3 s) p s (by omega) (by have := hρ p; omega) (by show 512 * 3 + s.val = _; omega))
    p d

/-- An index of the array is in point `t`'s block iff each coordinate is in the block's range on its axis. -/
theorem mem_blk5 (t : Fin cfg1.N) (i : S16x2048x768.Idx) :
    i ∈ ((cfg1.win 5).blk t).view.set ↔ ∀ a : Fin 3, win1_5.index t a * S1x1024x768.size a ≤ (i a).val ∧ (i a).val < win1_5.index t a * S1x1024x768.size a + S1x1024x768.size a := by
  show i ∈ ((View.whole main_v8).slice (win1_5.rect t)).set ↔ _
  rw [View.set_slice_whole, Rect.mem_set_unit]
  exact Iff.rfl

/-- The last-tile points' blocks cover the array: (b, n, d) is in the block of the point 8·b + 4·(n / 1024) + 3. -/
theorem covered5 (i : S16x2048x768.Idx) :
    ∃ t : Fin cfg1.N, (cfg1.win 5).flush t = true ∧ i ∈ ((cfg1.win 5).blk t).view.set := by
  have hN : cfg1.N = 128 := N_1
  have hi0 : (i 0).val < 16 := (i 0).isLt
  have hi1 : (i 1).val < 2048 := (i 1).isLt
  have hi2 : (i 2).val < 768 := (i 2).isLt
  obtain ⟨t, ht⟩ : ∃ t : Fin cfg1.N, t.val = 8 * (i 0).val + 4 * ((i 1).val / 1024) + 3 :=
    ⟨⟨8 * (i 0).val + 4 * ((i 1).val / 1024) + 3, by omega⟩, rfl⟩
  obtain ⟨-, -, -, -, -, -, -, -, -, -, -, -, f0, f1, f2⟩ := idx_facts1 t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 768 ≤ (i 2).val ∧ (i 2).val < win1_5.index t (2 : Fin 3) * 768 + 768; omega

/-- THE OUTPUT ARRAY after the last point: the specification's result on the arrays the region is entered with. -/
theorem final1 (c : Dev nD) : (dat1 V c).arrAt 5 cfg1.N
    = G1 (V c main_arg0) (V c main_v1) (V c main_arg4) (V c main_v6) (V c main_v7) :=
  (dat1 V c).arrAt_eq_of_cover 5 (G1 (V c main_arg0) (V c main_v1) (V c main_arg4) (V c main_v6) (V c main_v7))
    (fun t hf => flushed5_eq V c t hf) covered5

end Ideal

end Cert.KernelIdeal.Hand1V

end
-- ==== Proof.KIBridge.lean ====
/-
  The two regions' results, composed through the host operations between them, are the specification.

  The host transposes each weight matrix (and changes its float format, the identity on the extended reals), flattens
  the values to 32768 rows, lets the first region apply the affine layer to them, folds the result back to
  [16, 2048, 768], widens the one-bit mask with zeros to 32-bit words, and lets the second region compute the
  attention sum. Read at an index: the transposed weights at (k, e) are the weights at (e, k); row 2048·b + s of the
  flattened array is row (b, s); a widened mask word is nonzero exactly when the bit is 1. So the composed function is
  the specification's `ctx` at the two projections, which is `Cert.Spec.G`.
-/
import proofs.«114783_j42880953483477_2_alg».proof.Proof.KIG1
import proofs.«114783_j42880953483477_2_alg».proof.Proof.KIRegion0Value
import proofs.«114783_j42880953483477_2_alg».proof.Proof.Spec
import proofs.«114783_j42880953483477_2_alg».proof.Proof.KIAccum

noncomputable section

namespace Cert.KernelIdeal.Bridge

open Cert.KernelIdeal Cert.KernelIdeal.Facts₀ Idealize.ShloMosaic Idealize.ShloMosaic.ValueIdx Cert.Spec

/-- The transposed weights, in either float format, at (k, e) are the weights at (e, k). -/
theorem wT_apply (W : S768x768.Idx → EReal) (k e : Fin 768) :
    (truncf (F := Ideal) .bf16 (transpose S768x768 [1, 0] W transposes_S768x768_S768x768_1_0) bitsLt_bf16_f32 : S768x768.Idx → EReal)
      (ix2 k e) = W (ix2 e k) :=
  transpose_ix2_apply W transposes_S768x768_S768x768_1_0 k e

/-- Row 2048·b + s of the flattened values is row (b, s). -/
theorem flat_apply (X : S16x2048x768.Idx → EReal) (b : Fin 16) (s : Fin 2048) (k : Fin 768) :
    shapeCast S32768x768 X shapeCasts_S16x2048x768_S32768x768 (ix2 (⟨2048 * b.val + s.val, by omega⟩ : Fin 32768) k)
      = X (ix3 b s k) :=
  shapeCast_apply X shapeCasts_S16x2048x768_S32768x768 _ _ (by
    rw [Shape.rowMajor_val_three, Shape.rowMajor_val_two]
    show (b.val * 2048 + s.val) * 768 + k.val = (2048 * b.val + s.val) * 768 + k.val
    omega)

/-- Entry (b, s, e) of the folded array is entry (2048·b + s, e) of the flat one. -/
theorem fold_apply (Y : S32768x768.Idx → EReal) (b : Fin 16) (s : Fin 2048) (e : Fin 768) :
    shapeCast S16x2048x768 Y shapeCasts_S32768x768_S16x2048x768 (ix3 b s e)
      = Y (ix2 (⟨2048 * b.val + s.val, by omega⟩ : Fin 32768) e) :=
  shapeCast_apply Y shapeCasts_S32768x768_S16x2048x768 _ _ (by
    rw [Shape.rowMajor_val_three, Shape.rowMajor_val_two]
    show (2048 * b.val + s.val) * 768 + e.val = (b.val * 2048 + s.val) * 768 + e.val
    omega)

/-- A one-bit word is 1 or 0 according to whether it is 1. -/
theorem bit_ite (c : BitVec 1) : (if c = 1#1 then 1#1 else 0#1) = c := by
  by_cases h : c = 1#1
  · rw [if_pos h, h]
  · rw [if_neg h, eq_zero_of_ne_one h]

theorem bridge (x0 x1 : (⟨S16x2048x768, .f32⟩ : BufTy).Contents (Elt Ideal))
    (x2 : (⟨S16x2048x2048, .i1⟩ : BufTy).Contents (Elt Ideal))
    (x3 : (⟨S768x768, .f32⟩ : BufTy).Contents (Elt Ideal)) (x4 : (⟨S768, .f32⟩ : BufTy).Contents (Elt Ideal))
    (x5 : (⟨S768x768, .f32⟩ : BufTy).Contents (Elt Ideal)) (x6 : (⟨S768, .f32⟩ : BufTy).Contents (Elt Ideal)) :
    Cert.KernelIdeal.HandG.G1 x0
        (truncf (F := Ideal) .bf16 (transpose S768x768 [1, 0] x3 transposes_S768x768_S768x768_1_0) bitsLt_bf16_f32) x4
        (shapeCast S16x2048x768
          (Cert.KernelIdeal.Hand0V.G0 (shapeCast S32768x768 x1 shapeCasts_S16x2048x768_S32768x768)
            (truncf (F := Ideal) .bf16 (transpose S768x768 [1, 0] x5 transposes_S768x768_S768x768_1_0) bitsLt_bf16_f32) x6)
          shapeCasts_S32768x768_S16x2048x768)
        (extui 32 x2 natLt_1_32)
      = Cert.Spec.G x0 x1 x2 x3 x4 x5 x6 := by
  funext i
  obtain ⟨b, n, d, rfl⟩ : ∃ (b : Fin 16) (n : Fin 2048) (d : Fin 768), i = ix3 b n d := ⟨i 0, i 1, i 2, eq_ix3 i⟩
  rw [G_apply]
  show ctx _ _ _ b n d = ctx _ _ _ b n d
  have key : ∀ (m m' : Msk3) (q q' v v' : Fin 16 → Fin 2048 → Fin 768 → EReal), m = m' → q = q' → v = v' →
      ctx m q v b n d = ctx m' q' v' b n d := by
    intro m m' q q' v v' hm hq hv; rw [hm, hq, hv]
  refine key _ _ _ _ _ _ ?_ ?_ ?_
  · funext j
    show (if (x2 j).setWidth 32 ≠ 0#32 then 1#1 else 0#1) = x2 j
    rw [Cert.KernelIdeal.Pay.ite_setWidth, bit_ite]
  · funext b n e
    unfold proj
    refine congrArg (· + x4 (ix1 e)) (Finset.sum_congr rfl fun k _ => ?_)
    exact congrArg (x0 (ix3 b n k) * ·) (wT_apply x3 k e)
  · funext b s e
    rw [fold_apply]
    unfold proj
    show (∑ k : Fin 768, shapeCast S32768x768 x1 shapeCasts_S16x2048x768_S32768x768 (ix2 (⟨2048 * b.val + s.val, by omega⟩ : Fin 32768) k)
        * (truncf (F := Ideal) .bf16 (transpose S768x768 [1, 0] x5 transposes_S768x768_S768x768_1_0) bitsLt_bf16_f32 : S768x768.Idx → EReal) (ix2 k e))
        + x6 (ix1 e) = _
    refine congrArg (· + x6 (ix1 e)) (Finset.sum_congr rfl fun k _ => ?_)
    rw [flat_apply, wT_apply]

end Cert.KernelIdeal.Bridge

end
-- ==== Proof.KIValue.lean ====
/-
  The result array of the kernel program at the ideal instance is the specification's function of the argument arrays.

  The attention region leaves in the result what `G1` says of the arrays it is entered with; those arrays are the
  arguments themselves, or what the host operations and the projection region made of them: the transposed weights, the
  projected values recast to [16, 2048, 768] (the projection region leaves the affine map of the recast values), the
  mask's bits widened.  Substituting these, the bridge lemma identifies the whole with the specification.
-/
import proofs.«114783_j42880953483477_2_alg».proof.Proof.KIHost
import proofs.«114783_j42880953483477_2_alg».proof.Proof.KIRegion0Value
import proofs.«114783_j42880953483477_2_alg».proof.Proof.KIRegion1Value
import proofs.«114783_j42880953483477_2_alg».proof.Proof.KIBridge

noncomputable section

namespace Cert.KernelIdeal.HandV

open Cert.KernelIdeal Cert.KernelIdeal.Gen Cert.KernelIdeal.Hand Cert.KernelIdeal.HandH
open Idealize.ShloMosaic Idealize.ShloMosaic.TcCoe Idealize.SL.Sem

variable (m : (ℓ : Loc nD τ sig) → Buf (Elt Ideal) ℓ) (ρ : Dev nD → PrngReg)

/-- The specification at the launch contents of the seven arguments of core `c`. -/
abbrev spec (c : Dev nD) : Buf (Elt Ideal) ((c : Thread nD τ).loc main_v8) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What the attention region's write-backs leave in the result array is the specification. -/
theorem result_G (c : Dev nD) : (dat1 (Va3 m ρ) c).arrAt 5 cfg1.N = spec m c := by
  rw [Cert.KernelIdeal.Hand1V.final1 (Va3 m ρ) c, Va3_arg0, Va3_v1, Va3_arg4, Va3_v6, Va3_v7,
    Cert.KernelIdeal.Hand0V.final0 (Va1 m ρ) c, Va1_v4, Va1_v3, Va1_arg6]
  exact Cert.KernelIdeal.Bridge.bridge _ _ _ _ _ _ _

/-- The run, read: every weakly fair execution terminates with the result array at the specification and the arguments as
    launched. -/
theorem run_value : θ_run defs (onTc (τ := τ) (main (F := Ideal))) ⟨m, fun _ => 0, ρ⟩ (fun r => ∀ c : Dev nD,
      r.2.mem ((c.tc : Thread nD τ).loc main_v8) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(result_v8 m ρ r h c).trans (result_G m ρ c),
     (h c _ (mem_ucH main_arg0 (by decide))).trans (Wa4_main_arg0 m ρ c),
     (h c _ (mem_ucH main_arg1 (by decide))).trans (Wa4_main_arg1 m ρ c),
     (h c _ (mem_ucH main_arg2 (by decide))).trans (Wa4_main_arg2 m ρ c),
     (h c _ (mem_ucH main_arg3 (by decide))).trans (Wa4_main_arg3 m ρ c),
     (h c _ (mem_ucH main_arg4 (by decide))).trans (Wa4_main_arg4 m ρ c),
     (h c _ (mem_ucH main_arg5 (by decide))).trans (Wa4_main_arg5 m ρ c),
     (h c _ (mem_ucH main_arg6 (by decide))).trans (Wa4_main_arg6 m ρ c)⟩) (run_all m ρ)

end Cert.KernelIdeal.HandV

end
-- ==== Proof.RefRead.lean ====
/-
  The reference program's run and its operations read at an index, brought in for the modules that compare the
  reference with the kernel.
-/
import proofs.«114783_j42880953483477_2_alg».proof.Proof.Gen.ReferenceIdeal.Run
import proofs.«114783_j42880953483477_2_alg».proof.Proof.Gen.ReferenceIdeal.Read
-- ==== Proof.RefIsG.lean ====
/-
  The reference program computes the specification: its result array, read index by index at the ideal instance, is
  `Cert.Spec.G` of its seven arguments.

  Each generated `val_main_vN_apply` lemma reads one operation at an index; the composed index functions are the
  coordinate triples and pairs the specification names; the expansion 1 / (1 + e^(−x)) is the logistic function; the
  select on the one-bit mask is the `if`; the constant 1.0 denotes 1 and the fill constant is kept as its word.
-/
import proofs.«114783_j42880953483477_2_alg».proof.Proof.Spec
import proofs.«114783_j42880953483477_2_alg».proof.Proof.RefRead

noncomputable section

namespace Cert.RefIsG

open Idealize.ShloMosaic Idealize.ShloMosaic.ValueIdx
open Cert.ReferenceIdeal Cert.ReferenceIdeal.Read Cert.Spec

/-- The word of `1.0` denotes the real 1. -/
theorem ofBits_one : Ideal.ofBits .f32 0x3F800000#32 = 1 := by
  simp [Ideal.ofBits, Ideal.ieee, -EReal.coe_mul]; norm_num

/-! ## The composed index functions are the coordinate tuples -/

theorem lidx0 (b : Fin 16) (n : Fin 2048) (e k : Fin 768) : lidx_main_v0 (ix3 b n e) k = ix3 b n k := by
  funext a; match a with | ⟨0, _⟩ => rfl | ⟨1, _⟩ => rfl | ⟨2, _⟩ => rfl
theorem ridx0 (b : Fin 16) (n : Fin 2048) (e k : Fin 768) : ridx_main_v0 (ix3 b n e) k = ix2 e k := by
  funext a; match a with | ⟨0, _⟩ => rfl | ⟨1, _⟩ => rfl
theorem idx12 (b : Fin 16) (n : Fin 2048) (e : Fin 768) : idx_main_v1 (idx_main_v2 (ix3 b n e)) = ix1 e := by
  funext a; match a with | ⟨0, _⟩ => rfl
theorem lidx4 (b : Fin 16) (n : Fin 2048) (e k : Fin 768) : lidx_main_v4 (ix3 b n e) k = ix3 b n k := by
  funext a; match a with | ⟨0, _⟩ => rfl | ⟨1, _⟩ => rfl | ⟨2, _⟩ => rfl
theorem ridx4 (b : Fin 16) (n : Fin 2048) (e k : Fin 768) : ridx_main_v4 (ix3 b n e) k = ix2 e k := by
  funext a; match a with | ⟨0, _⟩ => rfl | ⟨1, _⟩ => rfl
theorem idx56 (b : Fin 16) (n : Fin 2048) (e : Fin 768) : idx_main_v5 (idx_main_v6 (ix3 b n e)) = ix1 e := by
  funext a; match a with | ⟨0, _⟩ => rfl
theorem lidx8 (b : Fin 16) (n s : Fin 2048) (k : Fin 768) : lidx_main_v8 (ix3 b n s) k = ix3 b n k := by
  funext a; match a with | ⟨0, _⟩ => rfl | ⟨1, _⟩ => rfl | ⟨2, _⟩ => rfl
theorem ridx8 (b : Fin 16) (n s : Fin 2048) (k : Fin 768) : ridx_main_v8 (ix3 b n s) k = ix3 b s k := by
  funext a; match a with | ⟨0, _⟩ => rfl | ⟨1, _⟩ => rfl | ⟨2, _⟩ => rfl
theorem lidx16 (b : Fin 16) (n : Fin 2048) (d : Fin 768) (s : Fin 2048) : lidx_main_v16 (ix3 b n d) s = ix3 b n s := by
  funext a; match a with | ⟨0, _⟩ => rfl | ⟨1, _⟩ => rfl | ⟨2, _⟩ => rfl
theorem ridx16 (b : Fin 16) (n : Fin 2048) (d : Fin 768) (s : Fin 2048) : ridx_main_v16 (ix3 b n d) s = ix3 b s d := by
  funext a; match a with | ⟨0, _⟩ => rfl | ⟨1, _⟩ => rfl | ⟨2, _⟩ => rfl

/-! ## The two affine maps -/

/-- Operation 3 (the query side's matrix product plus its broadcast bias) is `proj`. -/
theorem v3_eq (x0 : Arr3) (x3 : Mat2) (x4 : Vec1) (b : Fin 16) (n : Fin 2048) (e : Fin 768) :
    val_main_v3 (F := Ideal) x0 x3 x4 (ix3 b n e) = proj x0 x3 x4 b n e := by
  rw [val_main_v3_apply, val_main_v0_apply, val_main_v2_apply, val_main_v1_apply, idx12]
  simp only [lidx0, ridx0]
  rfl

/-- Operation 7 (the value side's matrix product plus its broadcast bias) is `proj`. -/
theorem v7_eq (x1 : Arr3) (x5 : Mat2) (x6 : Vec1) (b : Fin 16) (n : Fin 2048) (e : Fin 768) :
    val_main_v7 (F := Ideal) x1 x5 x6 (ix3 b n e) = proj x1 x5 x6 b n e := by
  rw [val_main_v7_apply, val_main_v4_apply, val_main_v6_apply, val_main_v5_apply, idx56]
  simp only [lidx4, ridx4]
  rfl

/-! ## The scores and the weights -/

/-- Operation 8 (the batched product contracting the feature axis of both sides) is `score`. -/
theorem v8_eq (x0 x1 : Arr3) (x3 : Mat2) (x4 : Vec1) (x5 : Mat2) (x6 : Vec1) (b : Fin 16) (n s : Fin 2048) :
    val_main_v8 (F := Ideal) x0 x1 x3 x4 x5 x6 (ix3 b n s) = score (proj x0 x3 x4) (proj x1 x5 x6) b n s := by
  rw [val_main_v8_apply]
  unfold score
  refine Finset.sum_congr rfl fun e _ => ?_
  rw [lidx8, ridx8, v3_eq, v7_eq]

/-- Operations 9 to 15 (select on the mask, negate, exponential, add one, divide one by it) are `weight`. -/
theorem v15_eq (x0 x1 : Arr3) (x2 : Msk3) (x3 : Mat2) (x4 : Vec1) (x5 : Mat2) (x6 : Vec1) (b : Fin 16) (n s : Fin 2048) :
    val_main_v15 (F := Ideal) x0 x1 x2 x3 x4 x5 x6 (ix3 b n s) = weight x2 (proj x0 x3 x4) (proj x1 x5 x6) b n s := by
  rw [val_main_v15_apply, val_main_v14_apply, val_main_cst_1_apply, val_main_v13_apply, val_main_v12_apply,
    val_main_cst_0_apply, val_main_v11_apply, val_main_v10_apply, val_main_v9_apply, v8_eq, val_main_call0_v1_apply,
    val_main_call0_v0_apply, val_main_cst_apply]
  simp only [Ideal.ofBits_def, ofBits_one]
  unfold weight fill
  rfl

/-! ## The reference is G -/

theorem ref_eq (x0 x1 : (⟨Cert.ReferenceIdeal.S16x2048x768, .f32⟩ : BufTy).Contents (Elt Ideal))
    (x2 : (⟨Cert.ReferenceIdeal.S16x2048x2048, .i1⟩ : BufTy).Contents (Elt Ideal))
    (x3 : (⟨Cert.ReferenceIdeal.S768x768, .f32⟩ : BufTy).Contents (Elt Ideal))
    (x4 : (⟨Cert.ReferenceIdeal.S768, .f32⟩ : BufTy).Contents (Elt Ideal))
    (x5 : (⟨Cert.ReferenceIdeal.S768x768, .f32⟩ : BufTy).Contents (Elt Ideal))
    (x6 : (⟨Cert.ReferenceIdeal.S768, .f32⟩ : BufTy).Contents (Elt Ideal)) :
    Cert.ReferenceIdeal.Read.val_main_v16 (F := Ideal) x0 x1 x2 x3 x4 x5 x6 = Cert.Spec.G x0 x1 x2 x3 x4 x5 x6 := by
  funext i
  obtain ⟨b, n, d, rfl⟩ : ∃ (b : Fin 16) (n : Fin 2048) (d : Fin 768), i = ix3 b n d := ⟨i 0, i 1, i 2, eq_ix3 i⟩
  rw [val_main_v16_apply, G_apply]
  unfold ctx
  refine Finset.sum_congr rfl fun s _ => ?_
  rw [lidx16, ridx16]
  exact congrArg₂ (· * ·) (v15_eq x0 x1 x2 x3 x4 x5 x6 b n s) (v7_eq x1 x5 x6 b s d)

end Cert.RefIsG

end
-- ==== Proof.lean ====
/-
  Sigmoid attention: a fused kernel against its plain reference.

  The reference projects queries and values by two affine maps (x·Wᵀ + b along the last axis), takes the inner
  products of projected query rows and projected value rows, replaces the masked-out scores by the word of −10⁹,
  applies the logistic function (as 1 / (1 + exp(−x))), and multiplies the resulting weights into the projected
  values: context[b, n, d] = Σ_s weight[b, n, s] · v[b, s, d] over all 2048 value rows.  The kernel program projects
  the values in a first region, and in a second region walks, for each (batch, tile of 1024 query rows), the value
  rows in four tiles of 512: at the first tile it zeroes an accumulator and projects its query block into a scratch
  buffer, at every tile it adds weight-tile · value-tile to the accumulator, and at the last tile it copies the
  accumulator out.  On the extended reals both are one function (`Cert.Spec.G`): a change of float format is the
  identity, a matrix product into a zero accumulator is the sum over the contracted axis, the logistic function is the
  same expression on both sides, a transposed operand only swaps coordinates, and the accumulator's ordered chain
  (((0 + T₀) + T₁) + T₂) + T₃ of the four tiles' partial sums is the sum over all rows because addition of extended
  reals is commutative and associative — no operand has to be finite, and the precondition is never opened.

  The frames: @main is host operations, the projection region, host operations, the attention region.  Each region
  contributes a segment record built from its body's run — the projection body is one load-compute-store; the attention
  body has three cases (first tile, middle tile, last tile), decided by the key/value tile coordinate, and its
  invariant carries the two scratch buffers from each grid point to the next at the contents the recursion
  `outsAt1` names — and the launch theorem for a list of segments gives termination, no fault, and every unscoped
  buffer at the fold of the boundaries' contents; the arguments are written by nothing.  The same text at the word-level
  instance is the word-level program's frame.  The ideal pass rewrote nothing, so the idealization's statement is `True`.
-/
import proofs.«114783_j42880953483477_2_alg».proof.Defs
import proofs.«114783_j42880953483477_2_alg».proof.Proof.Gen.Kernel
import proofs.«114783_j42880953483477_2_alg».proof.Proof.Gen.KernelIdeal
import proofs.«114783_j42880953483477_2_alg».proof.Proof.Gen.ReferenceIdeal
import proofs.«114783_j42880953483477_2_alg».proof.Proof.Gen.Pre_finite_inputs
import proofs.«114783_j42880953483477_2_alg».proof.Proof.KRun
import proofs.«114783_j42880953483477_2_alg».proof.Proof.KIValue
import proofs.«114783_j42880953483477_2_alg».proof.Proof.RefIsG
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, both programs end with the specification's function of those arguments in
    their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandV.spec m c, Cert.KernelIdeal.HandV.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefIsG.ref_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
